-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x512x128 : Shape := ⟨4, ![1, 512, 512, 128]⟩
abbrev S1x512x512x1 : Shape := ⟨4, ![1, 512, 512, 1]⟩
abbrev S128 : Shape := ⟨1, ![128]⟩
abbrev S128x128 : Shape := ⟨2, ![128, 128]⟩
abbrev S_ : Shape := ⟨0, ![]⟩

class Facts : Prop where
  bcast_S_S1x512x512x128 : S_.BroadcastsInDim S1x512x512x128 (![] : Fin 0 → Fin S1x512x512x128.rank)
  reducesTo_S1x512x512x128_S_d0_1_2_3 : S1x512x512x128.ReducesTo [0, 1, 2, 3] S_
  h_S_ : 0 < S_.numel
  bcast_S_S1x512x512x1 : S_.BroadcastsInDim S1x512x512x1 (![] : Fin 0 → Fin S1x512x512x1.rank)
  reducesTo_S1x512x512x1_S_d0_1_2_3 : S1x512x512x1.ReducesTo [0, 1, 2, 3] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x128 .f32) (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1x512x512x128 .f32) (main_arg1 : FVec F S1x512x512x1 .f32) (main_arg2 : FVec F S128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S1x512x512x128 .f32 := Host.absf main_arg0
  let main_cst : FVec F S_ .f32 := constant S_ .f32 0x7F800000#32
  let main_v1 : FVec F S1x512x512x128 .f32 := broadcastInDim S1x512x512x128 ![] bcast_S_S1x512x512x128 main_cst
  let main_v2 : IVec S1x512x512x128 1 := cmpf .olt main_v0 main_v1
  let main_c : IVec S_ 1 := constantI S_ 1 1#1
  let main_v3 : IVec S_ 1 := (fun x v => Host.reduce IntOp.andi x v reducesTo_S1x512x512x128_S_d0_1_2_3 h_S_) main_v2 main_c
  let main_v4 : FVec F S1x512x512x1 .f32 := Host.absf main_arg1
  let main_cst_0 : FVec F S_ .f32 := constant S_ .f32 0x7F800000#32
  let main_v5 : FVec F S1x512x512x1 .f32 := broadcastInDim S1x512x512x1 ![] bcast_S_S1x512x512x1 main_cst_0
  let main_v6 : IVec S1x512x512x1 1 := cmpf .olt main_v4 main_v5
  let main_c_1 : IVec S_ 1 := constantI S_ 1 1#1
  let main_v7 : IVec S_ 1 := (fun x v => Host.reduce IntOp.andi x v reducesTo_S1x512x512x1_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S1x512x512x128 : Shape := ⟨4, ![1, 512, 512, 128]⟩
abbrev S1x512x512x1 : Shape := ⟨4, ![1, 512, 512, 1]⟩
abbrev S128 : Shape := ⟨1, ![128]⟩
abbrev S128x128 : Shape := ⟨2, ![128, 128]⟩
abbrev S262144x128 : Shape := ⟨2, ![262144, 128]⟩
abbrev S262144x1 : Shape := ⟨2, ![262144, 1]⟩
abbrev S2048x128 : Shape := ⟨2, ![2048, 128]⟩
abbrev S2048x1 : Shape := ⟨2, ![2048, 1]⟩
abbrev S2048 : Shape := ⟨1, ![2048]⟩
abbrev S1x128 : Shape := ⟨2, ![1, 128]⟩

abbrev nBuf : Space → Nat
  | .hbm => 27
  | .vmem => 22
  | .smem => 0
  | _ => 0

abbrev bufTy : (tb : Table) → Fin (tcTables nBuf tb) → BufTy
  | .hbm, ⟨0, _⟩ => ⟨S1x512x512x128, .f32⟩
  | .hbm, ⟨1, _⟩ => ⟨S1x512x512x1, .f32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S262144x128, .f32⟩
  | .hbm, ⟨15, _⟩ => ⟨S262144x1, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S262144x128, .f32⟩
  | .hbm, ⟨22, _⟩ => ⟨S262144x128, .f32⟩
  | .hbm, ⟨23, _⟩ => ⟨S262144x128, .f32⟩
  | .hbm, ⟨24, _⟩ => ⟨S1x512x512x128, .f32⟩
  | .hbm, ⟨25, _⟩ => ⟨S1x512x512x128, .f32⟩
  | .hbm, ⟨26, _⟩ => ⟨S1x512x512x128, .f32⟩
  | .local _ .vmem, ⟨0, _⟩ => ⟨S2048x128, .f32⟩
  | .local _ .vmem, ⟨1, _⟩ => ⟨S2048x128, .f32⟩
  | .local _ .vmem, ⟨2, _⟩ => ⟨S2048x1, .f32⟩
  | .local _ .vmem, ⟨3, _⟩ => ⟨S2048x1, .f32⟩
  | .local _ .vmem, ⟨4, _⟩ => ⟨S128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | _, _ => ⟨S1x512x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S1x512x512x128_S262144x128 : S1x512x512x128.ShapeCasts S262144x128
  shapeCasts_S1x512x512x1_S262144x1 : S1x512x512x1.ShapeCasts S262144x1
  transposes_S128x128_S128x128_1_0 : S128x128.Transposes [1, 0] S128x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  broadcasts_S2048x1_S2048x128 : S2048x1.Broadcasts S2048x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S262144x128_S1x512x512x128 : S262144x128.ShapeCasts S1x512x512x128
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .f32 = 32 ∨ (Rect.block (s := S262144x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x128.size a ≤ S262144x128.size a
  hwx0_14 : ∀ i : grid0.Coords, EltTy.bits .f32 = 32 ∨ (Rect.block (s := S262144x128) S2048x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x128.size a ≤ S262144x128.size a
  hwx0_15 : ∀ i : grid0.Coords, EltTy.bits .f32 = 32 ∨ (Rect.block (s := S262144x128) S2048x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2048x128.size a ≤ S262144x128.size a
  hwx0_16 : ∀ i : grid0.Coords, EltTy.bits .f32 = 32 ∨ (Rect.block (s := S262144x128) S2048x128.size (cc0_transform_16 i) (hinb0_16 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7_0) S2048x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v7_1) S2048x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v7_2) S2048x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S1x512x512x128 : Shape := ⟨4, ![1, 512, 512, 128]⟩
abbrev S1x512x512x1 : Shape := ⟨4, ![1, 512, 512, 1]⟩
abbrev S128 : Shape := ⟨1, ![128]⟩
abbrev S128x128 : Shape := ⟨2, ![128, 128]⟩
abbrev S_ : Shape := ⟨0, ![]⟩
abbrev S1x512x512 : Shape := ⟨3, ![1, 512, 512]⟩
abbrev S1x1x1x128 : Shape := ⟨4, ![1, 1, 1, 128]⟩

abbrev nBuf : Space → Nat
  | .hbm => 93
  | .vmem => 0
  | .smem => 0
  | _ => 0

abbrev bufTy : (tb : Table) → Fin (tcTables nBuf tb) → BufTy
  | .hbm, ⟨0, _⟩ => ⟨S1x512x512x128, .f32⟩
  | .hbm, ⟨1, _⟩ => ⟨S1x512x512x1, .f32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S_, .f32⟩
  | .hbm, ⟨15, _⟩ => ⟨S1x512x512, .f32⟩
  | .hbm, ⟨16, _⟩ => ⟨S1x512x512x1, .f32⟩
  | .hbm, ⟨17, _⟩ => ⟨S_, .f32⟩
  | .hbm, ⟨18, _⟩ => ⟨S1x512x512x1, .f32⟩
  | .hbm, ⟨19, _⟩ => ⟨S1x512x512x1, .f32⟩
  | .hbm, ⟨20, _⟩ => ⟨S1x512x512x128, .f32⟩
  | .hbm, ⟨21, _⟩ => ⟨S1x512x512x128, .f32⟩
  | .hbm, ⟨22, _⟩ => ⟨S1x512x512x128, .f32⟩
  | .hbm, ⟨23, _⟩ => ⟨S_, .f32⟩
  | .hbm, ⟨24, _⟩ => ⟨S1x512x512, .f32⟩
  | .hbm, ⟨25, _⟩ => ⟨S1x512x512x1, .f32⟩
  | .hbm, ⟨26, _⟩ => ⟨S_, .f32⟩
  | .hbm, ⟨27, _⟩ => ⟨S1x512x512x1, .f32⟩
  | .hbm, ⟨28, _⟩ => ⟨S1x512x512x1, .f32⟩
  | .hbm, ⟨29, _⟩ => ⟨S1x512x512x128, .f32⟩
  | .hbm, ⟨30, _⟩ => ⟨S1x512x512x128, .f32⟩
  | .hbm, ⟨31, _⟩ => ⟨S_, .f32⟩
  | .hbm, ⟨32, _⟩ => ⟨S1x512x512x1, .f32⟩
  | .hbm, ⟨33, _⟩ => ⟨S1x512x512x1, .f32⟩
  | .hbm, ⟨34, _⟩ => ⟨S1x512x512x1, .f32⟩
  | .hbm, ⟨35, _⟩ => ⟨S1x512x512x128, .f32⟩
  | .hbm, ⟨36, _⟩ => ⟨S1x512x512x128, .f32⟩
  | .hbm, ⟨37, _⟩ => ⟨S1x1x1x128, .f32⟩
  | .hbm, ⟨38, _⟩ => ⟨S1x512x512x128, .f32⟩
  | .hbm, ⟨39, _⟩ => ⟨S1x512x512x128, .f32⟩
  | .hbm, ⟨40, _⟩ => ⟨S1x1x1x128, .f32⟩
  | .hbm, ⟨41, _⟩ => ⟨S1x512x512x128, .f32⟩
  | .hbm, ⟨42, _⟩ => ⟨S1x512x512x128, .f32⟩
  | .hbm, ⟨43, _⟩ => ⟨S1x512x512x128, .f32⟩
  | .hbm, ⟨44, _⟩ => ⟨S1x1x1x128, .f32⟩
  | .hbm, ⟨45, _⟩ => ⟨S1x512x512x128, .f32⟩
  | .hbm, ⟨46, _⟩ => ⟨S1x512x512x128, .f32⟩
  | .hbm, ⟨47, _⟩ => ⟨S1x512x512x128, .f32⟩
  | .hbm, ⟨48, _⟩ => ⟨S1x512x512x128, .f32⟩
  | .hbm, ⟨49, _⟩ => ⟨S_, .f32⟩
  | .hbm, ⟨50, _⟩ => ⟨S1x512x512x128, .f32⟩
  | .hbm, ⟨51, _⟩ => ⟨S1x512x512x128, .f32⟩
  | .hbm, ⟨52, _⟩ => ⟨S_, .f32⟩
  | .hbm, ⟨53, _⟩ => ⟨S1x512x512x128, .f32⟩
  | .hbm, ⟨54, _⟩ => ⟨S1x512x512x128, .f32⟩
  | .hbm, ⟨55, _⟩ => ⟨S1x512x512x128, .f32⟩
  | .hbm, ⟨56, _⟩ => ⟨S1x512x512x128, .f32⟩
  | .hbm, ⟨57, _⟩ => ⟨S1x512x512x128, .f32⟩
  | .hbm, ⟨58, _⟩ => ⟨S1x1x1x128, .f32⟩
  | .hbm, ⟨59, _⟩ => ⟨S1x512x512x128, .f32⟩
  | .hbm, ⟨60, _⟩ => ⟨S1x512x512x128, .f32⟩
  | .hbm, ⟨61, _⟩ => ⟨S1x512x512x128, .f32⟩
  | .hbm, ⟨62, _⟩ => ⟨S1x512x512x128, .f32⟩
  | .hbm, ⟨63, _⟩ => ⟨S1x1x1x128, .f32⟩
  | .hbm, ⟨64, _⟩ => ⟨S1x512x512x128, .f32⟩
  | .hbm, ⟨65, _⟩ => ⟨S1x512x512x128, .f32⟩
  | .hbm, ⟨66, _⟩ => ⟨S1x512x512x128, .f32⟩
  | .hbm, ⟨67, _⟩ => ⟨S1x512x512x128, .f32⟩
  | .hbm, ⟨68, _⟩ => ⟨S_, .f32⟩
  | .hbm, ⟨69, _⟩ => ⟨S1x512x512x128, .f32⟩
  | .hbm, ⟨70, _⟩ => ⟨S1x512x512x128, .f32⟩
  | .hbm, ⟨71, _⟩ => ⟨S_, .f32⟩
  | .hbm, ⟨72, _⟩ => ⟨S1x512x512x128, .f32⟩
  | .hbm, ⟨73, _⟩ => ⟨S1x512x512x128, .f32⟩
  | .hbm, ⟨74, _⟩ => ⟨S1x512x512x128, .f32⟩
  | .hbm, ⟨75, _⟩ => ⟨S1x512x512x128, .f32⟩
  | .hbm, ⟨76, _⟩ => ⟨S1x512x512x128, .f32⟩
  | .hbm, ⟨77, _⟩ => ⟨S1x1x1x128, .f32⟩
  | .hbm, ⟨78, _⟩ => ⟨S1x512x512x128, .f32⟩
  | .hbm, ⟨79, _⟩ => ⟨S1x512x512x128, .f32⟩
  | .hbm, ⟨80, _⟩ => ⟨S1x512x512x128, .f32⟩
  | .hbm, ⟨81, _⟩ => ⟨S1x512x512x128, .f32⟩
  | .hbm, ⟨82, _⟩ => ⟨S1x1x1x128, .f32⟩
  | .hbm, ⟨83, _⟩ => ⟨S1x512x512x128, .f32⟩
  | .hbm, ⟨84, _⟩ => ⟨S1x512x512x128, .f32⟩
  | .hbm, ⟨85, _⟩ => ⟨S1x512x512x128, .f32⟩
  | .hbm, ⟨86, _⟩ => ⟨S1x512x512x128, .f32⟩
  | .hbm, ⟨87, _⟩ => ⟨S_, .f32⟩
  | .hbm, ⟨88, _⟩ => ⟨S1x512x512x128, .f32⟩
  | .hbm, ⟨89, _⟩ => ⟨S1x512x512x128, .f32⟩
  | .hbm, ⟨90, _⟩ => ⟨S_, .f32⟩
  | .hbm, ⟨91, _⟩ => ⟨S1x512x512x128, .f32⟩
  | .hbm, ⟨92, _⟩ => ⟨S1x512x512x128, .f32⟩
  | _, _ => ⟨S1x512x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_8 : Ref sig .tc := ⟨.hbm, 87, rfl⟩
abbrev main_v64 : Ref sig .tc := ⟨.hbm, 88, rfl⟩
abbrev main_v65 : Ref sig .tc := ⟨.hbm, 89, rfl⟩
abbrev main_cst_9 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  reducesTo_S1x512x512x128_S1x512x512_d3 : S1x512x512x128.ReducesTo [3] S1x512x512
  h_S_ : 0 < S_.numel
  bcast_S1x512x512_S1x512x512x1_0_1_2 : S1x512x512.BroadcastsInDim S1x512x512x1 (![0, 1, 2] : Fin 3 → Fin S1x512x512x1.rank)
  bcast_S_S1x512x512x1 : S_.BroadcastsInDim S1x512x512x1 (![] : Fin 0 → Fin S1x512x512x1.rank)
  bcast_S1x512x512x1_S1x512x512x128_0_1_2_3 : S1x512x512x1.BroadcastsInDim S1x512x512x128 (![0, 1, 2, 3] : Fin 4 → Fin S1x512x512x128.rank)
  bcast_S128_S1x1x1x128_3 : S128.BroadcastsInDim S1x1x1x128 (![3] : Fin 1 → Fin S1x1x1x128.rank)
  bcast_S1x1x1x128_S1x512x512x128_0_1_2_3 : S1x1x1x128.BroadcastsInDim S1x512x512x128 (![0, 1, 2, 3] : Fin 4 → Fin S1x512x512x128.rank)
  bcast_S_S1x512x512x128 : S_.BroadcastsInDim S1x512x512x128 (![] : Fin 0 → Fin S1x512x512x128.rank)
  dot_S1x512x512x128_S128x128_S1x512x512x128_3_1_012_0_n_n_wf : DotDims.WF S1x512x512x128 S128x128 S1x512x512x128 [3] [1] [0, 1, 2] [0] [] []

variable [Facts₀]

def dot_S1x512x512x128_S128x128_S1x512x512x128_3_1_012_0_n_n : DotDims S1x512x512x128 S128x128 S1x512x512x128 where
  lhsContracting := [3]
  rhsContracting := [1]
  lhsNonContracting := [0, 1, 2]
  rhsNonContracting := [0]
  lhsBatch := []
  rhsBatch := []
  wf := dot_S1x512x512x128_S128x128_S1x512x512x128_3_1_012_0_n_n_wf

class Facts : Prop extends Facts₀ where

variable [Facts]
-- ==== Proof.HostGlue.lean ====
/-
  The host operations around the kernel's launch, read as values in exact arithmetic.

  Before the launch the pixel grid is flattened to 262144 rows of 128 channels (a change of shape that keeps the
  row-major order), the mask likewise to 262144 rows of one value, and each of the five weight matrices is transposed
  from output-major to input-major. After the launch each of the three result arrays, 262144 rows of 128 channels, is
  given back the grid's shape. Nothing else happens outside the launch.
-/
import proofs.«144442_j46823733461368_2_alg».proof.Proof.Gen.KernelIdeal.Frame
import Idealize.ShloMosaic.PureOps.Ideal
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.TriGate.Host

open Cert.KernelIdeal Cert.KernelIdeal.Gen

variable (m : (ℓ : Loc nD τ sig) → Buf (Elt Ideal) ℓ)

/-- The launch finds the pixels flattened: the grid in row-major order as 262144 rows. -/
theorem rows_entry (c : Dev nD) : (V m c main_v0 : S262144x128.Idx → Elt Ideal .f32)
    = shapeCast S262144x128 (m ((c : Thread nD τ).loc main_arg0)) shapeCasts_S1x512x512x128_S262144x128 := by
  show StableHlo.after hostOps0 (fun b => m (c, b)) (Proc.devRef .tc main_v0) = _
  after_results
  rfl

/-- The launch finds the mask flattened the same way. -/
theorem masks_entry (c : Dev nD) : (V m c main_v1 : S262144x1.Idx → Elt Ideal .f32)
    = shapeCast S262144x1 (m ((c : Thread nD τ).loc main_arg1)) shapeCasts_S1x512x512x1_S262144x1 := by
  show StableHlo.after hostOps0 (fun b => m (c, b)) (Proc.devRef .tc main_v1) = _
  after_results
  rfl

/-- The first projection's weights, transposed. -/
theorem weights2_entry (c : Dev nD) : (V m c main_v2 : S128x128.Idx → Elt Ideal .f32)
    = transpose S128x128 [1, 0] (m ((c : Thread nD τ).loc main_arg4)) transposes_S128x128_S128x128_1_0 := by
  show StableHlo.after hostOps0 (fun b => m (c, b)) (Proc.devRef .tc main_v2) = _
  after_results

/-- The first gate's weights, transposed. -/
theorem weights3_entry (c : Dev nD) : (V m c main_v3 : S128x128.Idx → Elt Ideal .f32)
    = transpose S128x128 [1, 0] (m ((c : Thread nD τ).loc main_arg6)) transposes_S128x128_S128x128_1_0 := by
  show StableHlo.after hostOps0 (fun b => m (c, b)) (Proc.devRef .tc main_v3) = _
  after_results

/-- The second projection's weights, transposed. -/
theorem weights4_entry (c : Dev nD) : (V m c main_v4 : S128x128.Idx → Elt Ideal .f32)
    = transpose S128x128 [1, 0] (m ((c : Thread nD τ).loc main_arg8)) transposes_S128x128_S128x128_1_0 := by
  show StableHlo.after hostOps0 (fun b => m (c, b)) (Proc.devRef .tc main_v4) = _
  after_results

/-- The second gate's weights, transposed. -/
theorem weights5_entry (c : Dev nD) : (V m c main_v5 : S128x128.Idx → Elt Ideal .f32)
    = transpose S128x128 [1, 0] (m ((c : Thread nD τ).loc main_arg10)) transposes_S128x128_S128x128_1_0 := by
  show StableHlo.after hostOps0 (fun b => m (c, b)) (Proc.devRef .tc main_v5) = _
  after_results

/-- The output gate's weights, transposed. -/
theorem weights6_entry (c : Dev nD) : (V m c main_v6 : S128x128.Idx → Elt Ideal .f32)
    = transpose S128x128 [1, 0] (m ((c : Thread nD τ).loc main_arg12)) transposes_S128x128_S128x128_1_0 := by
  show StableHlo.after hostOps0 (fun b => m (c, b)) (Proc.devRef .tc main_v6) = _
  after_results

/-- After the launch the first result is the launch's first array in the grid's shape. -/
theorem first_exit (c : Dev nD) : Pipeline.afterTail₀ cfgs (dats m) 0 (V0 m) [hostOps1] c main_v8
    = shapeCast S1x512x512x128 ((dats m 0 c).arrAt 14 cfg0.N) shapeCasts_S262144x128_S1x512x512x128 := by
  unfold Pipeline.afterTail₀
  show StableHlo.after hostOps1 _ (Proc.devRef .tc main_v8) = _
  after_results
  exact congrArg (fun x : S262144x128.Idx → Elt Ideal .f32 => shapeCast S1x512x512x128 x shapeCasts_S262144x128_S1x512x512x128)
    (Pipeline.withArrays_arr spec0 launch0.win.arr_inj c (V0 m c) (fun w => (dats m 0 c).arrAt w cfg0.N) 14)

/-- The second result likewise. -/
theorem second_exit (c : Dev nD) : Pipeline.afterTail₀ cfgs (dats m) 0 (V0 m) [hostOps1] c main_v9
    = shapeCast S1x512x512x128 ((dats m 0 c).arrAt 15 cfg0.N) shapeCasts_S262144x128_S1x512x512x128 := by
  unfold Pipeline.afterTail₀
  show StableHlo.after hostOps1 _ (Proc.devRef .tc main_v9) = _
  after_results
  exact congrArg (fun x : S262144x128.Idx → Elt Ideal .f32 => shapeCast S1x512x512x128 x shapeCasts_S262144x128_S1x512x512x128)
    (Pipeline.withArrays_arr spec0 launch0.win.arr_inj c (V0 m c) (fun w => (dats m 0 c).arrAt w cfg0.N) 15)

/-- The third result likewise. -/
theorem third_exit (c : Dev nD) : Pipeline.afterTail₀ cfgs (dats m) 0 (V0 m) [hostOps1] c main_v10
    = shapeCast S1x512x512x128 ((dats m 0 c).arrAt 16 cfg0.N) shapeCasts_S262144x128_S1x512x512x128 := by
  unfold Pipeline.afterTail₀
  show StableHlo.after hostOps1 _ (Proc.devRef .tc main_v10) = _
  after_results
  exact congrArg (fun x : S262144x128.Idx → Elt Ideal .f32 => shapeCast S1x512x512x128 x shapeCasts_S262144x128_S1x512x512x128)
    (Pipeline.withArrays_arr spec0 launch0.win.arr_inj c (V0 m c) (fun w => (dats m 0 c).arrAt w cfg0.N) 16)

end Cert.TriGate.Host

end
-- ==== Proof.LibRowOps.lean ====
/-
  Row operations of a small dense network on the extended reals.

  A row is a function `Fin n → EReal`. The operations are the ones a layer applies to one row of its input:
  an affine map `x ↦ x · W + b` (a sum of products plus a bias), the rectifier `max · 0`, the mean of a row,
  the row centred at its mean, the mean of the squared centred row, and layer normalisation
  `(x - mean) · rsqrt (var + ε) · g + b`. None of them needs the entries to be finite: they are stated with the
  extended reals' own `+`, `-`, `*`, `max`, division and reciprocal square root, and every later statement
  about them is an equality of two spellings of the same expression.
-/
import Idealize.ShloMosaic.PureOps.Ideal
import Idealize.ShloMosaic.Lib.ValueIdx

noncomputable section

open scoped BigOperators

namespace Cert.LibRowOps

open Idealize.ShloMosaic Idealize.ShloMosaic.ValueIdx

/-- One row of `n` entries. -/
abbrev Row (n : ℕ) := Fin n → EReal
/-- A `K` by `N` matrix as an array holds it. -/
abbrev Mat (K N : ℕ) := (⟨2, ![K, N]⟩ : Shape).Idx → EReal
/-- A vector of length `N` as an array holds it. -/
abbrev Vect (N : ℕ) := (⟨1, ![N]⟩ : Shape).Idx → EReal

/-- Row `p` of a matrix. -/
def rowOf {R K : ℕ} (x : Mat R K) (p : Fin R) : Row K := fun k => x (ix2 p k)

/-- The affine map: entry `n` is `∑ a, x a * w (a, n)` plus the bias at `n`. -/
def affine {K N : ℕ} (x : Row K) (w : Mat K N) (b : Vect N) : Row N :=
  fun n => (∑ a : Fin K, x a * w (ix2 a n)) + b (ix1 n)

/-- The rectifier, entry by entry, against the float zero. -/
def relu {N : ℕ} (x : Row N) : Row N := fun n => max (x n) (Ideal.ofBits .f32 0x00000000#32)

/-- The mean of a row: its sum divided by the float `d` (the row's length as the program spells it). -/
def mean {N : ℕ} (d : EReal) (x : Row N) : EReal := Ideal.div (∑ k : Fin N, x k) d

/-- The row with its mean taken off. -/
def centred {N : ℕ} (d : EReal) (x : Row N) : Row N := fun n => x n - mean d x

/-- The mean of the squares of the centred row. -/
def variance {N : ℕ} (d : EReal) (x : Row N) : EReal :=
  Ideal.div (∑ k : Fin N, centred d x k * centred d x k) d

/-- Scaling a centred row `c` by the reciprocal root of `v + ε`, then by a gain and a shift. -/
def rescale {N : ℕ} (ε : EReal) (c : Row N) (v : EReal) (g b : Vect N) : Row N :=
  fun n => c n * Ideal.rsqrt (v + ε) * g (ix1 n) + b (ix1 n)

/-- Layer normalisation of a row. -/
def layerNorm {N : ℕ} (d ε : EReal) (x : Row N) (g b : Vect N) : Row N :=
  rescale ε (centred d x) (variance d x) g b

/-- Clamping to `[lo, hi]` followed by the logistic function. -/
def squash (lo hi x : EReal) : EReal := Ideal.logistic (min hi (max lo x))

end Cert.LibRowOps

end
-- ==== Proof.Spec.lean ====
/-
  The gated projections of a triangle update, row by row, on the extended reals.

  A pixel of the pair representation is a row of 128 channels. The row is layer-normalised
  (mean and variance over the channels, the variance offset by a small constant, a gain and a shift per channel),
  and five dense maps are applied to the normalised row. Two outputs are a projection of the row times the logistic
  function of a second projection times the pixel's mask; the third is the logistic function of a projection alone.

  A weight matrix is met in two layouts: input-major, entry `(k, h)` multiplying channel `k` into output `h`
  (`affine`), and output-major, entry `(h, k)` (`affineT`). Transposing one layout gives the other, so the two maps
  agree (`affine_transpose`). Nothing here needs the entries to be finite.
-/
import proofs.«144442_j46823733461368_2_alg».proof.Proof.LibRowOps
import Idealize.ShloMosaic.Lib.ValueIdx
import Idealize.ShloMosaic.Lib.ValueLayout

noncomputable section

open scoped BigOperators

namespace Cert.TriGate

open Idealize.ShloMosaic Idealize.ShloMosaic.ValueIdx Cert.LibRowOps

/-- The number of channels as both programs spell it: the float 128. -/
abbrev len : EReal := Ideal.ofBits .f32 0x43000000#32
/-- The offset added to the variance, as both programs spell it. -/
abbrev eps : EReal := Ideal.ofBits .f32 0x3727C5AC#32

/-- The layer-normalised row. -/
def norm (x : Row 128) (g b : Vect 128) : Row 128 := layerNorm len eps x g b

/-- The affine map with the weights stored output-major: entry `h` is `∑ k, z k * w (h, k)` plus the bias at `h`. -/
def affineT {K N : ℕ} (z : Row K) (w : Mat N K) (b : Vect N) : Row N :=
  fun h => (∑ k : Fin K, z k * w (ix2 h k)) + b (ix1 h)

/-- A projection gated by the logistic function of another projection and by a mask; weights input-major. -/
def gated (mask : EReal) (z : Row 128) (wg : Mat 128 128) (bg : Vect 128) (wp : Mat 128 128) (bp : Vect 128) : Row 128 :=
  fun h => mask * Ideal.logistic (affine z wg bg h) * affine z wp bp h

/-- The same with the weights output-major. -/
def gatedT (mask : EReal) (z : Row 128) (wg : Mat 128 128) (bg : Vect 128) (wp : Mat 128 128) (bp : Vect 128) : Row 128 :=
  fun h => mask * Ideal.logistic (affineT z wg bg h) * affineT z wp bp h

/-- The logistic function of a projection; weights input-major. -/
def squashed (z : Row 128) (w : Mat 128 128) (b : Vect 128) : Row 128 := fun h => Ideal.logistic (affine z w b h)

/-- The same with the weights output-major. -/
def squashedT (z : Row 128) (w : Mat 128 128) (b : Vect 128) : Row 128 := fun h => Ideal.logistic (affineT z w b h)

/-- The input-major map of a transposed matrix is the output-major map of the matrix. -/
theorem affine_transpose {K N : ℕ} (z : Row K) (w : Mat N K) (h : (⟨2, ![N, K]⟩ : Shape).Transposes [1, 0] ⟨2, ![K, N]⟩)
    (b : Vect N) : affine z (transpose ⟨2, ![K, N]⟩ [1, 0] w h) b = affineT z w b := by
  funext n
  unfold affine affineT
  refine congrArg (· + b (ix1 n)) (Finset.sum_congr rfl fun a _ => ?_)
  rw [transpose_ix2_apply]

/-! ## The three results over the flattened pixels: 262144 rows of 128 channels, weights input-major -/

/-- The pixels as rows. -/
abbrev Rows := Mat 262144 128
/-- One mask value per pixel. -/
abbrev Masks := Mat 262144 1

/-- A gated projection of every pixel. -/
def gatedRows (X : Rows) (M : Masks) (g b : Vect 128) (wp : Mat 128 128) (bp : Vect 128) (wg : Mat 128 128) (bg : Vect 128) : Rows :=
  fun j => gated (M (ix2 (j 0) (0 : Fin 1))) (norm (rowOf X (j 0)) g b) wg bg wp bp (j 1)

/-- The logistic function of a projection of every pixel. -/
def squashedRows (X : Rows) (g b : Vect 128) (w : Mat 128 128) (bw : Vect 128) : Rows :=
  fun j => squashed (norm (rowOf X (j 0)) g b) w bw (j 1)

theorem gatedRows_apply (X : Rows) (M : Masks) (g b : Vect 128) (wp : Mat 128 128) (bp : Vect 128) (wg : Mat 128 128) (bg : Vect 128)
    (r : Fin 262144) (h : Fin 128) :
    gatedRows X M g b wp bp wg bg (ix2 r h) = gated (M (ix2 r (0 : Fin 1))) (norm (rowOf X r) g b) wg bg wp bp h := rfl

theorem squashedRows_apply (X : Rows) (g b : Vect 128) (w : Mat 128 128) (bw : Vect 128) (r : Fin 262144) (h : Fin 128) :
    squashedRows X g b w bw (ix2 r h) = squashed (norm (rowOf X r) g b) w bw h := rfl

/-! ## The three results over the pixel grid: 1 × 512 × 512 pixels of 128 channels, weights output-major -/

/-- The pair representation. -/
abbrev Grid := (⟨4, ![1, 512, 512, 128]⟩ : Shape).Idx → EReal
/-- One mask value per pixel of the grid. -/
abbrev GridMask := (⟨4, ![1, 512, 512, 1]⟩ : Shape).Idx → EReal

/-- The channels of one pixel. -/
def pixel (X : Grid) (z : Fin 1) (a b : Fin 512) : Row 128 := fun k => X (ix4 z a b k)

/-- A gated projection of every pixel of the grid. -/
def gatedGrid (X : Grid) (M : GridMask) (g b : Vect 128) (wp : Mat 128 128) (bp : Vect 128) (wg : Mat 128 128) (bg : Vect 128) : Grid :=
  fun i => gatedT (M (ix4 (i 0) (i 1) (i 2) (0 : Fin 1))) (norm (pixel X (i 0) (i 1) (i 2)) g b) wg bg wp bp (i 3)

/-- The logistic function of a projection of every pixel of the grid. -/
def squashedGrid (X : Grid) (g b : Vect 128) (w : Mat 128 128) (bw : Vect 128) : Grid :=
  fun i => squashedT (norm (pixel X (i 0) (i 1) (i 2)) g b) w bw (i 3)

theorem gatedGrid_apply (X : Grid) (M : GridMask) (g b : Vect 128) (wp : Mat 128 128) (bp : Vect 128) (wg : Mat 128 128) (bg : Vect 128)
    (z : Fin 1) (a c : Fin 512) (h : Fin 128) :
    gatedGrid X M g b wp bp wg bg (ix4 z a c h) = gatedT (M (ix4 z a c (0 : Fin 1))) (norm (pixel X z a c) g b) wg bg wp bp h := rfl

theorem squashedGrid_apply (X : Grid) (g b : Vect 128) (w : Mat 128 128) (bw : Vect 128) (z : Fin 1) (a c : Fin 512) (h : Fin 128) :
    squashedGrid X g b w bw (ix4 z a c h) = squashedT (norm (pixel X z a c) g b) w bw h := rfl

end Cert.TriGate

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.LibBlockLayers.lean ====
/-
  The layers of a small dense network as a kernel's vector operations apply them to a block of rows, read at an
  entry in exact arithmetic, for any extents.

  A block is an `R` by `K` array of activations. Each statement says that one group of vector operations, read at
  the entry `(p, q)`, is a row operation (`Cert.LibRowOps`) of row `p` of the block alone: the matrix product into
  a zero accumulator with the bias repeated over the rows is the affine map of the row; the lane sum divided by a
  splat is the row's mean; subtracting a column repeated along the lanes centres the row; and so on. A change of
  float format is the identity in exact arithmetic, so the narrowing before a product does not appear on the right.
-/
import proofs.«144442_j46823733461368_2_alg».proof.Proof.LibRowOps
import proofs.«144442_j46823733461368_2_alg».proof.Proof.LibPlainDot
import proofs.«144442_j46823733461368_2_alg».proof.Proof.LibVectorReads
import proofs.«144442_j46823733461368_2_alg».proof.Proof.LibLayout

noncomputable section

open scoped BigOperators

namespace Cert.LibBlockLayers

open Idealize.ShloMosaic Idealize.ShloMosaic.ValueIdx Cert.LibRowOps

/-- A product with plain dimension numbers into the zero accumulator, plus a bias vector repeated over the rows,
    at `(p, q)`: the affine map of row `p`. -/
theorem affine_block_apply {R K N : ℕ}
    (D : DotDims ⟨2, ![R, K]⟩ ⟨2, ![K, N]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![R, K]⟩ .f32) (hlt : FTy.bf16.bits < FTy.f32.bits)
    (w : FVec Ideal ⟨2, ![K, N]⟩ .bf16) (hw : (⟨2, ![K, N]⟩ : Shape).ShapeCasts ⟨2, ![K, N]⟩)
    (b : FVec Ideal ⟨1, ![N]⟩ .f32) (hc : (⟨1, ![N]⟩ : Shape).ShapeCasts ⟨2, ![1, N]⟩)
    (hb : (⟨2, ![1, N]⟩ : Shape).Broadcasts ⟨2, ![R, N]⟩) (p : Fin R) (q : Fin N) :
    addf (matmul D none (truncf .bf16 x hlt) (shapeCast ⟨2, ![K, N]⟩ w hw) (constant ⟨2, ![R, N]⟩ .f32 0x00000000#32))
        (broadcastTo ⟨2, ![R, N]⟩ (shapeCast ⟨2, ![1, N]⟩ b hc) hb) (ix2 p q)
      = affine (rowOf x p) w b q := by
  show FloatOps.matmul D none (truncf .bf16 x hlt) (shapeCast ⟨2, ![K, N]⟩ w hw) (constant ⟨2, ![R, N]⟩ .f32 0x00000000#32) (ix2 p q)
      + broadcastTo ⟨2, ![R, N]⟩ (shapeCast ⟨2, ![1, N]⟩ b hc) hb (ix2 p q) = _
  rw [Cert.LibPlainDot.matmul_zero_plain D hr hs hl0 hl1 hr0 hr1, Cert.LibVectorReads.bias_rows_apply, shapeCast_self]
  rfl

/-- The rectifier against a splat of the float zero, at any index. -/
theorem relu_block_apply {s : Shape} (v : FVec Ideal s .f32) (i : s.Idx) :
    maximumf v (broadcast s (Scalar.ofBits (F := Ideal) .f32 0x00000000#32)) i
      = max (v i) (Ideal.ofBits .f32 0x00000000#32) := rfl

/-- The lane sum of a block, laid out as a column and divided by a splat `d`, at `(p, z)`: the mean of row `p`. -/
theorem mean_block_apply {R N : ℕ} (v : FVec Ideal ⟨2, ![R, N]⟩ .f32)
    (h : (⟨2, ![R, N]⟩ : Shape).Reduces [(1 : Fin 2)] ⟨1, ![R]⟩) (hφ : FKind.Formats .f32)
    (hacc : (0x00000000#32 : BitVec 32) = FKind.add.neutral .f32 hφ)
    (hc : (⟨1, ![R]⟩ : Shape).ShapeCasts ⟨2, ![R, 1]⟩) (d : Ideal .f32) (p : Fin R) (z : Fin 1) :
    divf (shapeCast ⟨2, ![R, 1]⟩ (multiReduction .add [(1 : Fin 2)] ⟨1, ![R]⟩ v 0x00000000#32 h hφ hacc) hc)
        (broadcast ⟨2, ![R, 1]⟩ d) (ix2 p z)
      = mean d (rowOf v p) := by
  show Ideal.div (shapeCast ⟨2, ![R, 1]⟩ (multiReduction .add [(1 : Fin 2)] ⟨1, ![R]⟩ v 0x00000000#32 h hφ hacc) hc (ix2 p z)) d = _
  rw [Cert.LibLayout.shapeCast_a_a1_apply, Cert.LibVectorReads.sum_last2_apply]
  rfl

/-- A block less a column repeated along the lanes, at `(p, q)`. -/
theorem sub_column_block_apply {R N : ℕ} (v : FVec Ideal ⟨2, ![R, N]⟩ .f32) (col : FVec Ideal ⟨2, ![R, 1]⟩ .f32)
    (hb : (⟨2, ![R, 1]⟩ : Shape).Broadcasts ⟨2, ![R, N]⟩) (p : Fin R) (q : Fin N) :
    subf v (broadcastTo ⟨2, ![R, N]⟩ col hb) (ix2 p q) = v (ix2 p q) - col (ix2 p (0 : Fin 1)) := by
  show v (ix2 p q) - broadcastTo ⟨2, ![R, N]⟩ col hb (ix2 p q) = _
  rw [Cert.LibLayout.broadcastTo_a1_ab_apply]

/-- A centred block `c` times the reciprocal root of a column `v` plus a splat `ε`, times a gain vector and plus a shift
    vector, both repeated over the rows, at `(p, q)`. -/
theorem rescale_block_apply {R N : ℕ} (c : FVec Ideal ⟨2, ![R, N]⟩ .f32) (v : FVec Ideal ⟨2, ![R, 1]⟩ .f32)
    (ε : Ideal .f32) (g b : FVec Ideal ⟨1, ![N]⟩ .f32)
    (hv : (⟨2, ![R, 1]⟩ : Shape).Broadcasts ⟨2, ![R, N]⟩)
    (hcg : (⟨1, ![N]⟩ : Shape).ShapeCasts ⟨2, ![1, N]⟩) (hbg : (⟨2, ![1, N]⟩ : Shape).Broadcasts ⟨2, ![R, N]⟩)
    (hcb : (⟨1, ![N]⟩ : Shape).ShapeCasts ⟨2, ![1, N]⟩) (hbb : (⟨2, ![1, N]⟩ : Shape).Broadcasts ⟨2, ![R, N]⟩)
    (p : Fin R) (q : Fin N) :
    addf (mulf (mulf c (broadcastTo ⟨2, ![R, N]⟩ (rsqrt (addf v (broadcast ⟨2, ![R, 1]⟩ ε))) hv))
          (broadcastTo ⟨2, ![R, N]⟩ (shapeCast ⟨2, ![1, N]⟩ g hcg) hbg))
        (broadcastTo ⟨2, ![R, N]⟩ (shapeCast ⟨2, ![1, N]⟩ b hcb) hbb) (ix2 p q)
      = rescale ε (rowOf c p) (v (ix2 p (0 : Fin 1))) g b q := by
  show c (ix2 p q) * broadcastTo ⟨2, ![R, N]⟩ (rsqrt (addf v (broadcast ⟨2, ![R, 1]⟩ ε))) hv (ix2 p q)
        * broadcastTo ⟨2, ![R, N]⟩ (shapeCast ⟨2, ![1, N]⟩ g hcg) hbg (ix2 p q)
      + broadcastTo ⟨2, ![R, N]⟩ (shapeCast ⟨2, ![1, N]⟩ b hcb) hbb (ix2 p q) = _
  rw [Cert.LibLayout.broadcastTo_a1_ab_apply, Cert.LibVectorReads.bias_rows_apply, Cert.LibVectorReads.bias_rows_apply]
  rfl

/-- A dense layer followed by the rectifier, at `(p, q)`. -/
theorem relu_affine_block_apply {R K N : ℕ}
    (D : DotDims ⟨2, ![R, K]⟩ ⟨2, ![K, N]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![R, K]⟩ .f32) (hlt : FTy.bf16.bits < FTy.f32.bits)
    (w : FVec Ideal ⟨2, ![K, N]⟩ .bf16) (hw : (⟨2, ![K, N]⟩ : Shape).ShapeCasts ⟨2, ![K, N]⟩)
    (b : FVec Ideal ⟨1, ![N]⟩ .f32) (hc : (⟨1, ![N]⟩ : Shape).ShapeCasts ⟨2, ![1, N]⟩)
    (hb : (⟨2, ![1, N]⟩ : Shape).Broadcasts ⟨2, ![R, N]⟩) (p : Fin R) (q : Fin N) :
    maximumf (addf (matmul D none (truncf .bf16 x hlt) (shapeCast ⟨2, ![K, N]⟩ w hw) (constant ⟨2, ![R, N]⟩ .f32 0x00000000#32))
          (broadcastTo ⟨2, ![R, N]⟩ (shapeCast ⟨2, ![1, N]⟩ b hc) hb))
        (broadcast ⟨2, ![R, N]⟩ (Scalar.ofBits (F := Ideal) .f32 0x00000000#32)) (ix2 p q)
      = relu (affine (rowOf x p) w b) q :=
  (relu_block_apply _ _).trans
    (congrArg (max · (Ideal.ofBits .f32 0x00000000#32)) (affine_block_apply D hr hs hl0 hl1 hr0 hr1 x hlt w hw b hc hb p q))

/-- Clamping between two splats followed by the logistic function, at any index. -/
theorem squash_block_apply {s : Shape} (v : FVec Ideal s .f32) (lo hi : Ideal .f32) (i : s.Idx) :
    logistic (minimumf (broadcast s hi) (maximumf (broadcast s lo) v)) i = squash lo hi (v i) := rfl

/-- A sum of two blocks, at any index. -/
theorem add_block_apply {s : Shape} (v w : FVec Ideal s .f32) (i : s.Idx) : addf v w i = v i + w i := rfl

end Cert.LibBlockLayers

end
-- ==== Proof.BlockRows.lean ====
/-
  The three values the kernel's body stores, read at an entry of the block of rows it works on.

  The body loads a block of 2048 rows of 128 channels, layer-normalises every row (the lane sum divided by 128 is the
  mean; the mean is taken off; the lane sum of the squares divided by 128 is the variance; the centred row is scaled
  by the reciprocal root of the variance plus a small constant, by a gain and a shift), and applies five dense layers
  to the normalised block: a product with a 128 by 128 weight block, input-major, into a zero accumulator, plus a bias
  repeated over the rows. A change of float format is the identity in exact arithmetic. Read at the entry (p, q),
  each stored value is a row function of row p alone.
-/
import proofs.«144442_j46823733461368_2_alg».proof.Proof.Spec
import proofs.«144442_j46823733461368_2_alg».proof.Proof.LibBlockLayers
import proofs.«144442_j46823733461368_2_alg».proof.Proof.Gen.KernelIdeal.Skeleton

noncomputable section

open scoped BigOperators

namespace Cert.TriGate.Body

open Idealize.ShloMosaic Idealize.ShloMosaic.ValueIdx Cert.LibRowOps Cert.TriGate Cert.KernelIdeal Cert.KernelIdeal.Gen

/-! ## The normalised block -/

/-- The column of row means: the lane sums laid out as a column and divided by 128. -/
def meanCol (x0 : Vec Ideal S2048x128 .f32) : FVec Ideal S2048x1 .f32 :=
  divf (shapeCast S2048x1 (multiReduction .add [1] S2048 (shapeCast S2048x128 x0 shapeCasts_S2048x128_S2048x128)
      0x00000000#32 reduces_S2048x128_S2048 (.inl rfl) rfl) shapeCasts_S2048_S2048x1)
    (broadcast S2048x1 (Scalar.ofBits .f32 0x43000000#32))

/-- The block with every row's mean taken off. -/
def cenBlock (x0 : Vec Ideal S2048x128 .f32) : FVec Ideal S2048x128 .f32 :=
  subf (shapeCast S2048x128 x0 shapeCasts_S2048x128_S2048x128) (broadcastTo S2048x128 (meanCol x0) broadcasts_S2048x1_S2048x128)

/-- The column of row variances: the lane sums of the squared centred block, divided by 128. -/
def varCol (x0 : Vec Ideal S2048x128 .f32) : FVec Ideal S2048x1 .f32 :=
  divf (shapeCast S2048x1 (multiReduction .add [1] S2048 (mulf (cenBlock x0) (cenBlock x0))
      0x00000000#32 reduces_S2048x128_S2048 (.inl rfl) rfl) shapeCasts_S2048_S2048x1)
    (broadcast S2048x1 (Scalar.ofBits .f32 0x43000000#32))

/-- The body's first value is the centred block rescaled by the variance column, the gain and the shift, narrowed. -/
theorem pay1_eq (x0 : Vec Ideal S2048x128 .f32) (x2 x3 : Vec Ideal S128 .f32) :
    k0_pay1 (F := Ideal) x0 x2 x3
      = truncf .bf16 (addf (mulf (mulf (cenBlock x0)
            (broadcastTo S2048x128 (rsqrt (addf (varCol x0) (broadcast S2048x1 (Scalar.ofBits .f32 0x3727C5AC#32))))
              broadcasts_S2048x1_S2048x128))
          (broadcastTo S2048x128 (shapeCast S1x128 x2 shapeCasts_S128_S1x128) broadcasts_S1x128_S2048x128))
        (broadcastTo S2048x128 (shapeCast S1x128 x3 shapeCasts_S128_S1x128) broadcasts_S1x128_S2048x128)) bitsLt_bf16_f32 := rfl

/-- The mean column at row p is the mean of row p. -/
theorem meanCol_apply (x0 : Vec Ideal S2048x128 .f32) (p : Fin 2048) (z : Fin 1) :
    meanCol x0 (ix2 p z) = mean len (rowOf x0 p) := by
  unfold meanCol
  rw [shapeCast_self]
  exact Cert.LibBlockLayers.mean_block_apply (R := 2048) (N := 128) x0 reduces_S2048x128_S2048 (.inl rfl) rfl
    shapeCasts_S2048_S2048x1 (Scalar.ofBits .f32 0x43000000#32) p z

/-- The centred block at (p, k) is the centred row p at k. -/
theorem cenBlock_apply (x0 : Vec Ideal S2048x128 .f32) (p : Fin 2048) (k : Fin 128) :
    cenBlock x0 (ix2 p k) = centred len (rowOf x0 p) k := by
  unfold cenBlock
  rw [shapeCast_self]
  refine (Cert.LibBlockLayers.sub_column_block_apply (R := 2048) (N := 128) x0 (meanCol x0) broadcasts_S2048x1_S2048x128 p k).trans ?_
  rw [meanCol_apply]
  rfl

/-- Row p of the centred block is the centred row p. -/
theorem rowOf_cenBlock (x0 : Vec Ideal S2048x128 .f32) (p : Fin 2048) :
    rowOf (cenBlock x0) p = centred len (rowOf x0 p) := funext fun k => cenBlock_apply x0 p k

/-- The variance column at row p is the variance of row p. -/
theorem varCol_apply (x0 : Vec Ideal S2048x128 .f32) (p : Fin 2048) (z : Fin 1) :
    varCol x0 (ix2 p z) = variance len (rowOf x0 p) := by
  unfold varCol
  refine (Cert.LibBlockLayers.mean_block_apply (R := 2048) (N := 128) (mulf (cenBlock x0) (cenBlock x0))
    reduces_S2048x128_S2048 (.inl rfl) rfl shapeCasts_S2048_S2048x1 (Scalar.ofBits .f32 0x43000000#32) p z).trans ?_
  unfold mean variance
  refine congrArg (fun s => Ideal.div s len) (Finset.sum_congr rfl fun k _ => ?_)
  show cenBlock x0 (ix2 p k) * cenBlock x0 (ix2 p k) = _
  rw [cenBlock_apply]

/-- The body's first value at (p, k): the layer-normalised row p at k. -/
theorem norm_block (x0 : Vec Ideal S2048x128 .f32) (x2 x3 : Vec Ideal S128 .f32) (p : Fin 2048) (k : Fin 128) :
    k0_pay1 (F := Ideal) x0 x2 x3 (ix2 p k) = norm (rowOf x0 p) x2 x3 k := by
  rw [pay1_eq]
  refine (Cert.LibBlockLayers.rescale_block_apply (R := 2048) (N := 128) (cenBlock x0) (varCol x0)
    (Scalar.ofBits .f32 0x3727C5AC#32) x2 x3 broadcasts_S2048x1_S2048x128 shapeCasts_S128_S1x128
    broadcasts_S1x128_S2048x128 shapeCasts_S128_S1x128 broadcasts_S1x128_S2048x128 p k).trans ?_
  rw [rowOf_cenBlock, varCol_apply]
  rfl

/-! ## The dense layers on the normalised block -/

/-- The product's dimension numbers are the plain ones: one contracted axis. -/
theorem dot_rank : dot_S2048x128_S128x128_S2048x128_1_0_0_1_n_n.contr.rank = 1 := rfl

/-- The contracted axis has 128 positions. -/
theorem dot_size : dot_S2048x128_S128x128_S2048x128_1_0_0_1_n_n.contr.size ⟨0, by rw [dot_rank]; exact Nat.one_pos⟩ = 128 := rfl

/-- The left factor's row is the output's row. -/
theorem dot_l0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide),
    dif_pos (show (0 : Fin S2048x128.rank) ∈ dot_S2048x128_S128x128_S2048x128_1_0_0_1_n_n.lhsNonContracting by decide)]
  rfl

/-- The left factor's column is the contraction position. -/
theorem dot_l1 (i : S2048x128.Idx) (q : dot_S2048x128_S128x128_S2048x128_1_0_0_1_n_n.contr.Idx) :
    (dot_S2048x128_S128x128_S2048x128_1_0_0_1_n_n.lhsIdx i q 1).val = (q ⟨0, by rw [dot_rank]; exact Nat.one_pos⟩).val :=
  dot_S2048x128_S128x128_S2048x128_1_0_0_1_n_n.lhsIdx_val_of_single rfl i q

/-- The right factor's row is the contraction position. -/
theorem dot_r0 (i : S2048x128.Idx) (q : dot_S2048x128_S128x128_S2048x128_1_0_0_1_n_n.contr.Idx) :
    (dot_S2048x128_S128x128_S2048x128_1_0_0_1_n_n.rhsIdx i q 0).val = (q ⟨0, by rw [dot_rank]; exact Nat.one_pos⟩).val :=
  dot_S2048x128_S128x128_S2048x128_1_0_0_1_n_n.rhsIdx_val_of_single rfl i q

/-- The right factor's column is the output's column. -/
theorem dot_r1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide),
    dif_pos (show (1 : Fin S128x128.rank) ∈ dot_S2048x128_S128x128_S2048x128_1_0_0_1_n_n.rhsNonContracting by decide)]
  rfl

/-- A dense layer on the normalised block, at (p, q): the product with the narrowed weight block into the zero
    accumulator plus the bias repeated over the rows is the affine map of the normalised row p. -/
theorem layer_block (x0 : Vec Ideal S2048x128 .f32) (x2 x3 : Vec Ideal S128 .f32) (w : Vec Ideal S128x128 .f32)
    (bias : Vec Ideal S128 .f32) (p : Fin 2048) (q : Fin 128) :
    addf (matmul dot_S2048x128_S128x128_S2048x128_1_0_0_1_n_n none (k0_pay1 (F := Ideal) x0 x2 x3)
          (truncf .bf16 (shapeCast S128x128 w shapeCasts_S128x128_S128x128) bitsLt_bf16_f32)
          (constant S2048x128 .f32 0x00000000#32))
        (broadcastTo S2048x128 (shapeCast S1x128 bias shapeCasts_S128_S1x128) broadcasts_S1x128_S2048x128) (ix2 p q)
      = affine (norm (rowOf x0 p) x2 x3) w bias q := by
  show FloatOps.matmul dot_S2048x128_S128x128_S2048x128_1_0_0_1_n_n none (k0_pay1 (F := Ideal) x0 x2 x3)
          (truncf .bf16 (shapeCast S128x128 w shapeCasts_S128x128_S128x128) bitsLt_bf16_f32)
          (constant S2048x128 .f32 0x00000000#32) (ix2 p q)
        + broadcastTo S2048x128 (shapeCast S1x128 bias shapeCasts_S128_S1x128) broadcasts_S1x128_S2048x128 (ix2 p q) = _
  rw [Cert.LibPlainDot.matmul_zero_plain (R := 2048) (K := 128) (C := 128) dot_S2048x128_S128x128_S2048x128_1_0_0_1_n_n
      dot_rank dot_size dot_l0 dot_l1 dot_r0 dot_r1,
    Cert.LibVectorReads.bias_rows_apply]
  unfold affine
  refine congrArg (· + bias (ix1 q)) (Finset.sum_congr rfl fun a _ => ?_)
  rw [norm_block, shapeCast_self]
  rfl

/-! ## The three stored values -/

/-- A block times the logistic function of another block times a mask column repeated along the lanes, at (p, q). -/
theorem gate_apply (m : FVec Ideal S2048x1 .f32) (g a : FVec Ideal S2048x128 .f32) (p : Fin 2048) (q : Fin 128) :
    mulf (mulf (broadcastTo S2048x128 m broadcasts_S2048x1_S2048x128) (logistic g)) a (ix2 p q)
      = m (ix2 p (0 : Fin 1)) * Ideal.logistic (g (ix2 p q)) * a (ix2 p q) := by
  show broadcastTo S2048x128 m broadcasts_S2048x1_S2048x128 (ix2 p q) * Ideal.logistic (g (ix2 p q)) * a (ix2 p q) = _
  rw [Cert.LibLayout.broadcastTo_a1_ab_apply]

/-- The mask column is the loaded mask block. -/
theorem pay2_eq (x1 : Vec Ideal S2048x1 .f32) : k0_pay2 (F := Ideal) x1 = x1 := shapeCast_self _ _

/-- The first stored value at (p, q): the gated projection of the normalised row p. -/
theorem first_block (x0 : Vec Ideal S2048x128 .f32) (x1 : Vec Ideal S2048x1 .f32) (x2 x3 : Vec Ideal S128 .f32) (x4 : Vec Ideal S128x128 .f32) (x5 : Vec Ideal S128 .f32) (x6 : Vec Ideal S128x128 .f32) (x7 : Vec Ideal S128 .f32) (p : Fin 2048) (q : Fin 128) :
    k0_pay5 (F := Ideal) (k0_pay2 x1) (k0_pay3 x0 x2 x3 x4 x5) (k0_pay4 x0 x2 x3 x6) x7 (ix2 p q)
      = gated (x1 (ix2 p (0 : Fin 1))) (norm (rowOf x0 p) x2 x3) x6 x7 x4 x5 q := by
  refine (gate_apply (k0_pay2 x1)
    (addf (k0_pay4 x0 x2 x3 x6) (broadcastTo S2048x128 (shapeCast S1x128 x7 shapeCasts_S128_S1x128) broadcasts_S1x128_S2048x128))
    (k0_pay3 x0 x2 x3 x4 x5) p q).trans ?_
  have hg : addf (k0_pay4 (F := Ideal) x0 x2 x3 x6) (broadcastTo S2048x128 (shapeCast S1x128 x7 shapeCasts_S128_S1x128) broadcasts_S1x128_S2048x128) (ix2 p q)
      = affine (norm (rowOf x0 p) x2 x3) x6 x7 q := layer_block x0 x2 x3 x6 x7 p q
  have hp : k0_pay3 (F := Ideal) x0 x2 x3 x4 x5 (ix2 p q) = affine (norm (rowOf x0 p) x2 x3) x4 x5 q := layer_block x0 x2 x3 x4 x5 p q
  rw [pay2_eq, hg, hp]
  rfl

/-- The second stored value at (p, q): the gated projection of the normalised row p with the second pair of layers. -/
theorem second_block (x0 : Vec Ideal S2048x128 .f32) (x1 : Vec Ideal S2048x1 .f32) (x2 x3 : Vec Ideal S128 .f32) (x8 : Vec Ideal S128x128 .f32) (x9 : Vec Ideal S128 .f32) (x10 : Vec Ideal S128x128 .f32) (x11 : Vec Ideal S128 .f32) (p : Fin 2048) (q : Fin 128) :
    k0_pay6 (F := Ideal) (k0_pay1 x0 x2 x3) (k0_pay2 x1) x8 x9 x10 x11 (ix2 p q)
      = gated (x1 (ix2 p (0 : Fin 1))) (norm (rowOf x0 p) x2 x3) x10 x11 x8 x9 q := by
  refine (gate_apply (k0_pay2 x1)
    (addf (matmul dot_S2048x128_S128x128_S2048x128_1_0_0_1_n_n none (k0_pay1 (F := Ideal) x0 x2 x3)
          (truncf .bf16 (shapeCast S128x128 x10 shapeCasts_S128x128_S128x128) bitsLt_bf16_f32)
          (constant S2048x128 .f32 0x00000000#32))
        (broadcastTo S2048x128 (shapeCast S1x128 x11 shapeCasts_S128_S1x128) broadcasts_S1x128_S2048x128))
    (addf (matmul dot_S2048x128_S128x128_S2048x128_1_0_0_1_n_n none (k0_pay1 (F := Ideal) x0 x2 x3)
          (truncf .bf16 (shapeCast S128x128 x8 shapeCasts_S128x128_S128x128) bitsLt_bf16_f32)
          (constant S2048x128 .f32 0x00000000#32))
        (broadcastTo S2048x128 (shapeCast S1x128 x9 shapeCasts_S128_S1x128) broadcasts_S1x128_S2048x128)) p q).trans ?_
  rw [pay2_eq, layer_block, layer_block]
  rfl

/-- The third stored value at (p, q): the logistic function of a projection of the normalised row p. -/
theorem third_block (x0 : Vec Ideal S2048x128 .f32) (x2 x3 : Vec Ideal S128 .f32) (x12 : Vec Ideal S128x128 .f32) (x13 : Vec Ideal S128 .f32) (p : Fin 2048) (q : Fin 128) :
    k0_pay7 (F := Ideal) (k0_pay1 x0 x2 x3) x12 x13 (ix2 p q) = squashed (norm (rowOf x0 p) x2 x3) x12 x13 q := by
  show Ideal.logistic (addf (matmul dot_S2048x128_S128x128_S2048x128_1_0_0_1_n_n none (k0_pay1 (F := Ideal) x0 x2 x3)
          (truncf .bf16 (shapeCast S128x128 x12 shapeCasts_S128x128_S128x128) bitsLt_bf16_f32)
          (constant S2048x128 .f32 0x00000000#32))
        (broadcastTo S2048x128 (shapeCast S1x128 x13 shapeCasts_S128_S1x128) broadcasts_S1x128_S2048x128) (ix2 p q)) = _
  rw [layer_block]
  rfl

end Cert.TriGate.Body

end
-- ==== Proof.BlockReads.lean ====
/-
  Where the launch's blocks sit in its arrays.

  The launch walks 128 grid points. At point `t` the pixel rows, the mask and each of the three results are cut into
  blocks of 2048 consecutive rows, block `t` being rows `2048 t … 2048 t + 2047`; every other operand (the gain, the
  shift, the five weight matrices and the five biases) is one block, the whole array, at every point. So an entry
  `(p, k)` of a row block at point `t` is the entry `(2048 t + p, k)` of the array, and a whole-array block is the array.
-/
import proofs.«144442_j46823733461368_2_alg».proof.Proof.Gen.KernelIdeal.Frame
import Idealize.ShloMosaic.PureOps.Ideal
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.TriGate.Blocks

open Cert.KernelIdeal Cert.KernelIdeal.Gen

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The block index of each operand at each grid point: the row-blocked operands are at block `t` along the rows, and
    everything else at block zero. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (0 : Fin 2) = 0 ∧ win0_8.index t (1 : Fin 2) = 0 ∧ win0_9.index t (0 : Fin 1) = 0
    ∧ win0_10.index t (0 : Fin 2) = 0 ∧ win0_10.index t (1 : Fin 2) = 0 ∧ win0_11.index t (0 : Fin 1) = 0
    ∧ win0_12.index t (0 : Fin 2) = 0 ∧ win0_12.index t (1 : Fin 2) = 0 ∧ win0_13.index t (0 : Fin 1) = 0
    ∧ win0_14.index t (0 : Fin 2) = t.val ∧ win0_14.index t (1 : Fin 2) = 0
    ∧ win0_15.index t (0 : Fin 2) = t.val ∧ win0_15.index t (1 : Fin 2) = 0
    ∧ win0_16.index t (0 : Fin 2) = t.val ∧ win0_16.index t (1 : Fin 2) = 0 :=
  (by decide +kernel : ∀ t : Fin grid0.N, _)

/-- Row `p` of block `t` is row `2048 t + p` of the array. -/
def blockRow (t : Fin cfg0.N) (p : Fin 2048) : Fin 262144 :=
  ⟨t.val * 2048 + p.val, by have ht : t.val < 128 := lt_of_lt_of_eq t.isLt N_0; have := p.isLt; omega⟩

/-- An entry of the pixel block at point `t` is the array's entry in row `2048 t + p`. -/
theorem rows_read (c : Dev nD) (t : Fin cfg0.N) (p : Fin 2048) (k : Fin 128) :
    (iblk m c 0 t : Vec Ideal S2048x128 .f32) (ix2 p k) = (V m c main_v0 : S262144x128.Idx → Elt Ideal .f32) (ix2 (blockRow t p) k) := by
  obtain ⟨e0, e1, -⟩ := block_index t
  unfold iblk
  rw [View.read_apply]
  show V m c main_v0 _ = V m c main_v0 _
  refine congrArg (V m c main_v0) (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 128 + 1 * k.val = k.val; rw [e1]; omega

/-- An entry of the mask block at point `t` is the array's entry in row `2048 t + p`. -/
theorem masks_read (c : Dev nD) (t : Fin cfg0.N) (p : Fin 2048) (z : Fin 1) :
    (iblk m c 1 t : Vec Ideal S2048x1 .f32) (ix2 p z) = (V m c main_v1 : S262144x1.Idx → Elt Ideal .f32) (ix2 (blockRow t p) z) := by
  obtain ⟨-, -, e0, e1, -⟩ := block_index t
  unfold iblk
  rw [View.read_apply]
  show V m c main_v1 _ = V m c main_v1 _
  refine congrArg (V m c main_v1) (funext fun a => Fin.ext ?_)
  match a with
  | ⟨0, _⟩ => show win0_1.index t (0 : Fin 2) * 2048 + 1 * p.val = t.val * 2048 + p.val; rw [e0]; omega
  | ⟨1, _⟩ => show win0_1.index t (1 : Fin 2) * 1 + 1 * z.val = z.val; rw [e1]; omega

/-- The gain's block is the gain. -/
theorem whole2 (c : Dev nD) (t : Fin cfg0.N) : (iblk m c 2 t : Vec Ideal S128 .f32) = (V m c main_arg2 : S128.Idx → Elt Ideal .f32) := by
  obtain ⟨-, -, -, -, e, -⟩ := block_index t
  funext y
  unfold iblk
  rw [View.read_apply]
  show V m c main_arg2 _ = V m c main_arg2 _
  refine congrArg (V m c main_arg2) (funext fun a => Fin.ext ?_)
  match a with
  | ⟨0, _⟩ => show win0_2.index t (0 : Fin 1) * 128 + 1 * (y 0).val = (y 0).val; rw [e]; omega

/-- The shift's block is the shift. -/
theorem whole3 (c : Dev nD) (t : Fin cfg0.N) : (iblk m c 3 t : Vec Ideal S128 .f32) = (V m c main_arg3 : S128.Idx → Elt Ideal .f32) := by
  obtain ⟨-, -, -, -, -, e, -⟩ := block_index t
  funext y
  unfold iblk
  rw [View.read_apply]
  show V m c main_arg3 _ = V m c main_arg3 _
  refine congrArg (V m c main_arg3) (funext fun a => Fin.ext ?_)
  match a with
  | ⟨0, _⟩ => show win0_3.index t (0 : Fin 1) * 128 + 1 * (y 0).val = (y 0).val; rw [e]; omega

/-- The first projection's weight block is the (transposed) weight array. -/
theorem whole4 (c : Dev nD) (t : Fin cfg0.N) : (iblk m c 4 t : Vec Ideal S128x128 .f32) = (V m c main_v2 : S128x128.Idx → Elt Ideal .f32) := by
  obtain ⟨-, -, -, -, -, -, e0, e1, -⟩ := block_index t
  funext y
  unfold iblk
  rw [View.read_apply]
  show V m c main_v2 _ = V m c main_v2 _
  refine congrArg (V m c main_v2) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The first projection's bias block is the bias. -/
theorem whole5 (c : Dev nD) (t : Fin cfg0.N) : (iblk m c 5 t : Vec Ideal S128 .f32) = (V m c main_arg5 : S128.Idx → Elt Ideal .f32) := by
  obtain ⟨-, -, -, -, -, -, -, -, e, -⟩ := block_index t
  funext y
  unfold iblk
  rw [View.read_apply]
  show V m c main_arg5 _ = V m c main_arg5 _
  refine congrArg (V m c main_arg5) (funext fun a => Fin.ext ?_)
  match a with
  | ⟨0, _⟩ => show win0_5.index t (0 : Fin 1) * 128 + 1 * (y 0).val = (y 0).val; rw [e]; omega

/-- The first gate's weight block is the (transposed) weight array. -/
theorem whole6 (c : Dev nD) (t : Fin cfg0.N) : (iblk m c 6 t : Vec Ideal S128x128 .f32) = (V m c main_v3 : S128x128.Idx → Elt Ideal .f32) := by
  obtain ⟨-, -, -, -, -, -, -, -, -, e0, e1, -⟩ := block_index t
  funext y
  unfold iblk
  rw [View.read_apply]
  show V m c main_v3 _ = V m c main_v3 _
  refine congrArg (V m c main_v3) (funext fun a => Fin.ext ?_)
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

/-- The first gate's bias block is the bias. -/
theorem whole7 (c : Dev nD) (t : Fin cfg0.N) : (iblk m c 7 t : Vec Ideal S128 .f32) = (V m c main_arg7 : S128.Idx → Elt Ideal .f32) := by
  obtain ⟨-, -, -, -, -, -, -, -, -, -, -, e, -⟩ := block_index t
  funext y
  unfold iblk
  rw [View.read_apply]
  show V m c main_arg7 _ = V m c main_arg7 _
  refine congrArg (V m c main_arg7) (funext fun a => Fin.ext ?_)
  match a with
  | ⟨0, _⟩ => show win0_7.index t (0 : Fin 1) * 128 + 1 * (y 0).val = (y 0).val; rw [e]; omega

/-- The second projection's weight block is the (transposed) weight array. -/
theorem whole8 (c : Dev nD) (t : Fin cfg0.N) : (iblk m c 8 t : Vec Ideal S128x128 .f32) = (V m c main_v4 : S128x128.Idx → Elt Ideal .f32) := by
  obtain ⟨-, -, -, -, -, -, -, -, -, -, -, -, e0, e1, -⟩ := block_index t
  funext y
  unfold iblk
  rw [View.read_apply]
  show V m c main_v4 _ = V m c main_v4 _
  refine congrArg (V m c main_v4) (funext fun a => Fin.ext ?_)
  match a with
  | ⟨0, _⟩ => show win0_8.index t (0 : Fin 2) * 128 + 1 * (y 0).val = (y 0).val; rw [e0]; omega
  | ⟨1, _⟩ => show win0_8.index t (1 : Fin 2) * 128 + 1 * (y 1).val = (y 1).val; rw [e1]; omega

/-- The second projection's bias block is the bias. -/
theorem whole9 (c : Dev nD) (t : Fin cfg0.N) : (iblk m c 9 t : Vec Ideal S128 .f32) = (V m c main_arg9 : S128.Idx → Elt Ideal .f32) := by
  obtain ⟨-, -, -, -, -, -, -, -, -, -, -, -, -, -, e, -⟩ := block_index t
  funext y
  unfold iblk
  rw [View.read_apply]
  show V m c main_arg9 _ = V m c main_arg9 _
  refine congrArg (V m c main_arg9) (funext fun a => Fin.ext ?_)
  match a with
  | ⟨0, _⟩ => show win0_9.index t (0 : Fin 1) * 128 + 1 * (y 0).val = (y 0).val; rw [e]; omega

/-- The second gate's weight block is the (transposed) weight array. -/
theorem whole10 (c : Dev nD) (t : Fin cfg0.N) : (iblk m c 10 t : Vec Ideal S128x128 .f32) = (V m c main_v5 : S128x128.Idx → Elt Ideal .f32) := by
  obtain ⟨-, -, -, -, -, -, -, -, -, -, -, -, -, -, -, e0, e1, -⟩ := block_index t
  funext y
  unfold iblk
  rw [View.read_apply]
  show V m c main_v5 _ = V m c main_v5 _
  refine congrArg (V m c main_v5) (funext fun a => Fin.ext ?_)
  match a with
  | ⟨0, _⟩ => show win0_10.index t (0 : Fin 2) * 128 + 1 * (y 0).val = (y 0).val; rw [e0]; omega
  | ⟨1, _⟩ => show win0_10.index t (1 : Fin 2) * 128 + 1 * (y 1).val = (y 1).val; rw [e1]; omega

/-- The second gate's bias block is the bias. -/
theorem whole11 (c : Dev nD) (t : Fin cfg0.N) : (iblk m c 11 t : Vec Ideal S128 .f32) = (V m c main_arg11 : S128.Idx → Elt Ideal .f32) := by
  obtain ⟨-, -, -, -, -, -, -, -, -, -, -, -, -, -, -, -, -, e, -⟩ := block_index t
  funext y
  unfold iblk
  rw [View.read_apply]
  show V m c main_arg11 _ = V m c main_arg11 _
  refine congrArg (V m c main_arg11) (funext fun a => Fin.ext ?_)
  match a with
  | ⟨0, _⟩ => show win0_11.index t (0 : Fin 1) * 128 + 1 * (y 0).val = (y 0).val; rw [e]; omega

/-- The output gate's weight block is the (transposed) weight array. -/
theorem whole12 (c : Dev nD) (t : Fin cfg0.N) : (iblk m c 12 t : Vec Ideal S128x128 .f32) = (V m c main_v6 : S128x128.Idx → Elt Ideal .f32) := by
  obtain ⟨-, -, -, -, -, -, -, -, -, -, -, -, -, -, -, -, -, -, e0, e1, -⟩ := block_index t
  funext y
  unfold iblk
  rw [View.read_apply]
  show V m c main_v6 _ = V m c main_v6 _
  refine congrArg (V m c main_v6) (funext fun a => Fin.ext ?_)
  match a with
  | ⟨0, _⟩ => show win0_12.index t (0 : Fin 2) * 128 + 1 * (y 0).val = (y 0).val; rw [e0]; omega
  | ⟨1, _⟩ => show win0_12.index t (1 : Fin 2) * 128 + 1 * (y 1).val = (y 1).val; rw [e1]; omega

/-- The output gate's bias block is the bias. -/
theorem whole13 (c : Dev nD) (t : Fin cfg0.N) : (iblk m c 13 t : Vec Ideal S128 .f32) = (V m c main_arg13 : S128.Idx → Elt Ideal .f32) := by
  obtain ⟨-, -, -, -, -, -, -, -, -, -, -, -, -, -, -, -, -, -, -, -, e, -⟩ := block_index t
  funext y
  unfold iblk
  rw [View.read_apply]
  show V m c main_arg13 _ = V m c main_arg13 _
  refine congrArg (V m c main_arg13) (funext fun a => Fin.ext ?_)
  match a with
  | ⟨0, _⟩ => show win0_13.index t (0 : Fin 1) * 128 + 1 * (y 0).val = (y 0).val; rw [e]; omega

end Cert.TriGate.Blocks

end
-- ==== Proof.Flushed.lean ====
/-
  What the launch leaves in its three result arrays.

  At grid point `t` the body stores, into each result's block, a row function of the pixel block's rows (the gated
  projections, the logistic function of a projection). Block `t` of a result is rows `2048 t … 2048 t + 2047`, so what point
  `t` writes back is block `t` of ONE whole-array function of the arrays the launch finds: the row-wise results of the
  flattened pixels. The 128 blocks tile the 262144 rows (row `r` is in block `r / 2048`), so after the launch each result
  array is that function.
-/
import proofs.«144442_j46823733461368_2_alg».proof.Proof.Gen.KernelIdeal.Frame
import proofs.«144442_j46823733461368_2_alg».proof.Proof.Spec
import proofs.«144442_j46823733461368_2_alg».proof.Proof.BlockRows
import proofs.«144442_j46823733461368_2_alg».proof.Proof.BlockReads
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.TriGate.Blocks

open Cert.KernelIdeal Cert.KernelIdeal.Gen Cert.LibRowOps Cert.TriGate

variable (m : (ℓ : Loc nD τ sig) → Buf (Elt Ideal) ℓ)

/-- The first result over the arrays the launch finds: the projection weighted by the first weight pair. -/
abbrev firstRows (c : Dev nD) : Rows :=
  gatedRows (V m c main_v0 : S262144x128.Idx → Elt Ideal .f32) (V m c main_v1 : S262144x1.Idx → Elt Ideal .f32)
    (V m c main_arg2 : S128.Idx → Elt Ideal .f32) (V m c main_arg3 : S128.Idx → Elt Ideal .f32)
    (V m c main_v2 : S128x128.Idx → Elt Ideal .f32) (V m c main_arg5 : S128.Idx → Elt Ideal .f32)
    (V m c main_v3 : S128x128.Idx → Elt Ideal .f32) (V m c main_arg7 : S128.Idx → Elt Ideal .f32)

/-- The second result: the same with the second weight pair. -/
abbrev secondRows (c : Dev nD) : Rows :=
  gatedRows (V m c main_v0 : S262144x128.Idx → Elt Ideal .f32) (V m c main_v1 : S262144x1.Idx → Elt Ideal .f32)
    (V m c main_arg2 : S128.Idx → Elt Ideal .f32) (V m c main_arg3 : S128.Idx → Elt Ideal .f32)
    (V m c main_v4 : S128x128.Idx → Elt Ideal .f32) (V m c main_arg9 : S128.Idx → Elt Ideal .f32)
    (V m c main_v5 : S128x128.Idx → Elt Ideal .f32) (V m c main_arg11 : S128.Idx → Elt Ideal .f32)

/-- The third result: the logistic function of the last projection. -/
abbrev thirdRows (c : Dev nD) : Rows :=
  squashedRows (V m c main_v0 : S262144x128.Idx → Elt Ideal .f32)
    (V m c main_arg2 : S128.Idx → Elt Ideal .f32) (V m c main_arg3 : S128.Idx → Elt Ideal .f32)
    (V m c main_v6 : S128x128.Idx → Elt Ideal .f32) (V m c main_arg13 : S128.Idx → Elt Ideal .f32)

/-- The rows of the pixel block at point `t` are the array's rows from `2048 t` on. -/
theorem rows_of_block (c : Dev nD) (t : Fin cfg0.N) (p : Fin 2048) :
    rowOf (iblk m c 0 t : Vec Ideal S2048x128 .f32) p = rowOf (V m c main_v0 : S262144x128.Idx → Elt Ideal .f32) (blockRow t p) :=
  funext fun k => rows_read m c t p k

/-- What point `t` writes back into the first result is block `t` of `firstRows`. -/
theorem first_flushed (c : Dev nD) (t : Fin cfg0.N) :
    (dats m 0 c).flushed 14 t = ((cfg0.win 14).blk t).view.read (Elt Ideal) (firstRows m c) := by
  show (cfg0.win 14).cut (grid0.coords t) ((dats m 0 c).after 14 t) = _
  rw [after0_14]
  unfold out0_14
  rw [View.canon_unit_zero zero2]
  simp only [View.ld_unit_zero (S := S2048x128) zero2, View.ld_unit_zero (S := S2048x1) zero2,
    View.ld_unit_zero (S := S128x128) zero2, View.ld_unit_zero (S := S128) zero1]
  obtain ⟨-, -, -, -, -, -, -, -, -, -, -, -, -, -, -, -, -, -, -, -, -, e0, e1, -⟩ := block_index t
  funext j
  obtain ⟨p, q, rfl⟩ : ∃ (p : Fin 2048) (q : Fin 128), j = ix2 p q := ⟨j 0, j 1, eq_ix2 j⟩
  have hemb : ((cfg0.win 14).blk t).view.emb (ix2 p q) = (ix2 (blockRow t p) q : S262144x128.Idx) :=
    funext fun a => Fin.ext (by
      match a with
      | ⟨0, _⟩ => show win0_14.index t (0 : Fin 2) * 2048 + 1 * p.val = t.val * 2048 + p.val; rw [e0]; omega
      | ⟨1, _⟩ => show win0_14.index t (1 : Fin 2) * 128 + 1 * q.val = q.val; rw [e1]; omega)
  show k0_pay5 (F := Ideal) (k0_pay2 (iblk m c 1 t)) (k0_pay3 (iblk m c 0 t) (iblk m c 2 t) (iblk m c 3 t) (iblk m c 4 t) (iblk m c 5 t)) (k0_pay4 (iblk m c 0 t) (iblk m c 2 t) (iblk m c 3 t) (iblk m c 6 t)) (iblk m c 7 t) (ix2 p q) = firstRows m c (((cfg0.win 14).blk t).view.emb (ix2 p q))
  rw [hemb]
  refine (Body.first_block (iblk m c 0 t) (iblk m c 1 t) (iblk m c 2 t) (iblk m c 3 t) (iblk m c 4 t) (iblk m c 5 t) (iblk m c 6 t) (iblk m c 7 t) p q).trans ?_
  unfold firstRows
  rw [gatedRows_apply, masks_read m c t p (0 : Fin 1), rows_of_block m c t p, whole2 m c t, whole3 m c t, whole4 m c t, whole5 m c t,
    whole6 m c t, whole7 m c t]

/-- What point `t` writes back into the second result is block `t` of `secondRows`. -/
theorem second_flushed (c : Dev nD) (t : Fin cfg0.N) :
    (dats m 0 c).flushed 15 t = ((cfg0.win 15).blk t).view.read (Elt Ideal) (secondRows m c) := by
  show (cfg0.win 15).cut (grid0.coords t) ((dats m 0 c).after 15 t) = _
  rw [after0_15]
  unfold out0_15
  rw [View.canon_unit_zero zero2]
  simp only [View.ld_unit_zero (S := S2048x128) zero2, View.ld_unit_zero (S := S2048x1) zero2,
    View.ld_unit_zero (S := S128x128) zero2, View.ld_unit_zero (S := S128) zero1]
  obtain ⟨-, -, -, -, -, -, -, -, -, -, -, -, -, -, -, -, -, -, -, -, -, -, -, e0, e1, -⟩ := block_index t
  funext j
  obtain ⟨p, q, rfl⟩ : ∃ (p : Fin 2048) (q : Fin 128), j = ix2 p q := ⟨j 0, j 1, eq_ix2 j⟩
  have hemb : ((cfg0.win 15).blk t).view.emb (ix2 p q) = (ix2 (blockRow t p) q : S262144x128.Idx) :=
    funext fun a => Fin.ext (by
      match a with
      | ⟨0, _⟩ => show win0_15.index t (0 : Fin 2) * 2048 + 1 * p.val = t.val * 2048 + p.val; rw [e0]; omega
      | ⟨1, _⟩ => show win0_15.index t (1 : Fin 2) * 128 + 1 * q.val = q.val; rw [e1]; omega)
  show k0_pay6 (F := Ideal) (k0_pay1 (iblk m c 0 t) (iblk m c 2 t) (iblk m c 3 t)) (k0_pay2 (iblk m c 1 t)) (iblk m c 8 t) (iblk m c 9 t) (iblk m c 10 t) (iblk m c 11 t) (ix2 p q) = secondRows m c (((cfg0.win 15).blk t).view.emb (ix2 p q))
  rw [hemb]
  refine (Body.second_block (iblk m c 0 t) (iblk m c 1 t) (iblk m c 2 t) (iblk m c 3 t) (iblk m c 8 t) (iblk m c 9 t) (iblk m c 10 t) (iblk m c 11 t) p q).trans ?_
  unfold secondRows
  rw [gatedRows_apply, masks_read m c t p (0 : Fin 1), rows_of_block m c t p, whole2 m c t, whole3 m c t, whole8 m c t, whole9 m c t,
    whole10 m c t, whole11 m c t]

/-- What point `t` writes back into the third result is block `t` of `thirdRows`. -/
theorem third_flushed (c : Dev nD) (t : Fin cfg0.N) :
    (dats m 0 c).flushed 16 t = ((cfg0.win 16).blk t).view.read (Elt Ideal) (thirdRows m c) := by
  show (cfg0.win 16).cut (grid0.coords t) ((dats m 0 c).after 16 t) = _
  rw [after0_16]
  unfold out0_16
  rw [View.canon_unit_zero zero2]
  simp only [View.ld_unit_zero (S := S2048x128) zero2, View.ld_unit_zero (S := S2048x1) zero2,
    View.ld_unit_zero (S := S128x128) zero2, View.ld_unit_zero (S := S128) zero1]
  obtain ⟨-, -, -, -, -, -, -, -, -, -, -, -, -, -, -, -, -, -, -, -, -, -, -, -, -, e0, e1⟩ := block_index t
  funext j
  obtain ⟨p, q, rfl⟩ : ∃ (p : Fin 2048) (q : Fin 128), j = ix2 p q := ⟨j 0, j 1, eq_ix2 j⟩
  have hemb : ((cfg0.win 16).blk t).view.emb (ix2 p q) = (ix2 (blockRow t p) q : S262144x128.Idx) :=
    funext fun a => Fin.ext (by
      match a with
      | ⟨0, _⟩ => show win0_16.index t (0 : Fin 2) * 2048 + 1 * p.val = t.val * 2048 + p.val; rw [e0]; omega
      | ⟨1, _⟩ => show win0_16.index t (1 : Fin 2) * 128 + 1 * q.val = q.val; rw [e1]; omega)
  show k0_pay7 (F := Ideal) (k0_pay1 (iblk m c 0 t) (iblk m c 2 t) (iblk m c 3 t)) (iblk m c 12 t) (iblk m c 13 t) (ix2 p q) = thirdRows m c (((cfg0.win 16).blk t).view.emb (ix2 p q))
  rw [hemb]
  refine (Body.third_block (iblk m c 0 t) (iblk m c 2 t) (iblk m c 3 t) (iblk m c 12 t) (iblk m c 13 t) p q).trans ?_
  unfold thirdRows
  rw [squashedRows_apply, rows_of_block m c t p, whole2 m c t, whole3 m c t, whole12 m c t, whole13 m c t]

/-- An entry is in point `t`'s block of the first result iff its row is among the block's 2048 rows. -/
theorem first_mem (t : Fin cfg0.N) (i : S262144x128.Idx) :
    i ∈ ((cfg0.win 14).blk t).view.set ↔ ∀ a : Fin 2, win0_14.index t a * S2048x128.size a ≤ (i a).val
      ∧ (i a).val < win0_14.index t a * S2048x128.size a + S2048x128.size a := by
  show i ∈ ((View.whole main_v7_0).slice (win0_14.rect t)).set ↔ _
  rw [View.set_slice_whole, Rect.mem_set_unit]
  exact Iff.rfl

/-- Every entry of the first result is in the block of the point its row falls in. -/
theorem first_cover (i : S262144x128.Idx) :
    ∃ t : Fin cfg0.N, (cfg0.win 14).flush t = true ∧ i ∈ ((cfg0.win 14).blk t).view.set := by
  have hi0 : (i 0).val < 262144 := (i 0).isLt
  have hi1 : (i 1).val < 128 := (i 1).isLt
  have hlt : (i 0).val / 2048 < cfg0.N := lt_of_lt_of_eq (by omega : (i 0).val / 2048 < 128) N_0.symm
  refine ⟨⟨(i 0).val / 2048, hlt⟩, flush0_14 _, ?_⟩
  obtain ⟨-, -, -, -, -, -, -, -, -, -, -, -, -, -, -, -, -, -, -, -, -, e0, e1, -⟩ := block_index ⟨(i 0).val / 2048, hlt⟩
  rw [first_mem]
  intro a
  match a with
  | ⟨0, _⟩ =>
    show win0_14.index ⟨(i 0).val / 2048, hlt⟩ (0 : Fin 2) * 2048 ≤ (i 0).val
      ∧ (i 0).val < win0_14.index ⟨(i 0).val / 2048, hlt⟩ (0 : Fin 2) * 2048 + 2048
    rw [e0]
    show (i 0).val / 2048 * 2048 ≤ (i 0).val ∧ (i 0).val < (i 0).val / 2048 * 2048 + 2048
    omega
  | ⟨1, _⟩ =>
    show win0_14.index ⟨(i 0).val / 2048, hlt⟩ (1 : Fin 2) * 128 ≤ (i 1).val
      ∧ (i 1).val < win0_14.index ⟨(i 0).val / 2048, hlt⟩ (1 : Fin 2) * 128 + 128
    rw [e1]
    omega

/-- After the launch the first result array is `firstRows`. -/
theorem first_final (c : Dev nD) : (dats m 0 c).arrAt 14 cfg0.N = firstRows m c :=
  (dats m 0 c).arrAt_eq_of_cover 14 (firstRows m c) (fun t _ => first_flushed m c t) first_cover

/-- An entry is in point `t`'s block of the second result iff its row is among the block's 2048 rows. -/
theorem second_mem (t : Fin cfg0.N) (i : S262144x128.Idx) :
    i ∈ ((cfg0.win 15).blk t).view.set ↔ ∀ a : Fin 2, win0_15.index t a * S2048x128.size a ≤ (i a).val
      ∧ (i a).val < win0_15.index t a * S2048x128.size a + S2048x128.size a := by
  show i ∈ ((View.whole main_v7_1).slice (win0_15.rect t)).set ↔ _
  rw [View.set_slice_whole, Rect.mem_set_unit]
  exact Iff.rfl

/-- Every entry of the second result is in the block of the point its row falls in. -/
theorem second_cover (i : S262144x128.Idx) :
    ∃ t : Fin cfg0.N, (cfg0.win 15).flush t = true ∧ i ∈ ((cfg0.win 15).blk t).view.set := by
  have hi0 : (i 0).val < 262144 := (i 0).isLt
  have hi1 : (i 1).val < 128 := (i 1).isLt
  have hlt : (i 0).val / 2048 < cfg0.N := lt_of_lt_of_eq (by omega : (i 0).val / 2048 < 128) N_0.symm
  refine ⟨⟨(i 0).val / 2048, hlt⟩, flush0_15 _, ?_⟩
  obtain ⟨-, -, -, -, -, -, -, -, -, -, -, -, -, -, -, -, -, -, -, -, -, -, -, e0, e1, -⟩ := block_index ⟨(i 0).val / 2048, hlt⟩
  rw [second_mem]
  intro a
  match a with
  | ⟨0, _⟩ =>
    show win0_15.index ⟨(i 0).val / 2048, hlt⟩ (0 : Fin 2) * 2048 ≤ (i 0).val
      ∧ (i 0).val < win0_15.index ⟨(i 0).val / 2048, hlt⟩ (0 : Fin 2) * 2048 + 2048
    rw [e0]
    show (i 0).val / 2048 * 2048 ≤ (i 0).val ∧ (i 0).val < (i 0).val / 2048 * 2048 + 2048
    omega
  | ⟨1, _⟩ =>
    show win0_15.index ⟨(i 0).val / 2048, hlt⟩ (1 : Fin 2) * 128 ≤ (i 1).val
      ∧ (i 1).val < win0_15.index ⟨(i 0).val / 2048, hlt⟩ (1 : Fin 2) * 128 + 128
    rw [e1]
    omega

/-- After the launch the second result array is `secondRows`. -/
theorem second_final (c : Dev nD) : (dats m 0 c).arrAt 15 cfg0.N = secondRows m c :=
  (dats m 0 c).arrAt_eq_of_cover 15 (secondRows m c) (fun t _ => second_flushed m c t) second_cover

/-- An entry is in point `t`'s block of the third result iff its row is among the block's 2048 rows. -/
theorem third_mem (t : Fin cfg0.N) (i : S262144x128.Idx) :
    i ∈ ((cfg0.win 16).blk t).view.set ↔ ∀ a : Fin 2, win0_16.index t a * S2048x128.size a ≤ (i a).val
      ∧ (i a).val < win0_16.index t a * S2048x128.size a + S2048x128.size a := by
  show i ∈ ((View.whole main_v7_2).slice (win0_16.rect t)).set ↔ _
  rw [View.set_slice_whole, Rect.mem_set_unit]
  exact Iff.rfl

/-- Every entry of the third result is in the block of the point its row falls in. -/
theorem third_cover (i : S262144x128.Idx) :
    ∃ t : Fin cfg0.N, (cfg0.win 16).flush t = true ∧ i ∈ ((cfg0.win 16).blk t).view.set := by
  have hi0 : (i 0).val < 262144 := (i 0).isLt
  have hi1 : (i 1).val < 128 := (i 1).isLt
  have hlt : (i 0).val / 2048 < cfg0.N := lt_of_lt_of_eq (by omega : (i 0).val / 2048 < 128) N_0.symm
  refine ⟨⟨(i 0).val / 2048, hlt⟩, flush0_16 _, ?_⟩
  obtain ⟨-, -, -, -, -, -, -, -, -, -, -, -, -, -, -, -, -, -, -, -, -, -, -, -, -, e0, e1⟩ := block_index ⟨(i 0).val / 2048, hlt⟩
  rw [third_mem]
  intro a
  match a with
  | ⟨0, _⟩ =>
    show win0_16.index ⟨(i 0).val / 2048, hlt⟩ (0 : Fin 2) * 2048 ≤ (i 0).val
      ∧ (i 0).val < win0_16.index ⟨(i 0).val / 2048, hlt⟩ (0 : Fin 2) * 2048 + 2048
    rw [e0]
    show (i 0).val / 2048 * 2048 ≤ (i 0).val ∧ (i 0).val < (i 0).val / 2048 * 2048 + 2048
    omega
  | ⟨1, _⟩ =>
    show win0_16.index ⟨(i 0).val / 2048, hlt⟩ (1 : Fin 2) * 128 ≤ (i 1).val
      ∧ (i 1).val < win0_16.index ⟨(i 0).val / 2048, hlt⟩ (1 : Fin 2) * 128 + 128
    rw [e1]
    omega

/-- After the launch the third result array is `thirdRows`. -/
theorem third_final (c : Dev nD) : (dats m 0 c).arrAt 16 cfg0.N = thirdRows m c :=
  (dats m 0 c).arrAt_eq_of_cover 16 (thirdRows m c) (fun t _ => third_flushed m c t) third_cover

end Cert.TriGate.Blocks

end
-- ==== Proof.Flat.lean ====
/-
  Flattening the pixel grid to rows and back, and the two layouts of the weights, joined.

  The grid has 1 × 512 × 512 pixels; in row-major order pixel `(0, a, c)` is row `512 a + c` of the flattened array, and
  channel `k` stays channel `k`. So reading the flattened pixels at row `512 a + c` is reading the grid at pixel `(a, c)`,
  the flattened mask likewise, and giving a rows-array the grid's shape reads it back at row `512 a + c`. With that and
  with the transposed weights read output-major, the row-wise results over flattened operands, reshaped to the grid,
  are the grid-wise results.
-/
import proofs.«144442_j46823733461368_2_alg».proof.Proof.Spec
import Idealize.ShloMosaic.Lib.Pipeline.Value
import Idealize.ShloMosaic.Lib.ValueIdx

noncomputable section

open scoped BigOperators

namespace Cert.TriGate.Flat

open Idealize.ShloMosaic Idealize.ShloMosaic.ValueIdx Cert.LibRowOps Cert.TriGate

/-- The row of pixel `(a, c)` in the flattened arrays. -/
def pixelRow (a c : Fin 512) : Fin 262144 := ⟨a.val * 512 + c.val, by have := a.isLt; have := c.isLt; omega⟩

/-- The flattened pixels at row `512 a + c` are the grid's pixel `(a, c)`. -/
theorem flat_rows (X : Grid) (h : (⟨4, ![1, 512, 512, 128]⟩ : Shape).ShapeCasts ⟨2, ![262144, 128]⟩)
    (z : Fin 1) (a c : Fin 512) (k : Fin 128) :
    shapeCast ⟨2, ![262144, 128]⟩ X h (ix2 (pixelRow a c) k) = X (ix4 z a c k) :=
  shapeCast_apply X h _ _ (by
    have hz : z.val = 0 := by omega
    rw [Shape.rowMajor_val_four, Shape.rowMajor_val_two]
    show ((z.val * 512 + a.val) * 512 + c.val) * 128 + k.val = (a.val * 512 + c.val) * 128 + k.val
    rw [hz]; omega)

/-- The flattened mask at row `512 a + c` is the grid's mask at pixel `(a, c)`. -/
theorem flat_masks (M : GridMask) (h : (⟨4, ![1, 512, 512, 1]⟩ : Shape).ShapeCasts ⟨2, ![262144, 1]⟩)
    (z : Fin 1) (a c : Fin 512) (u : Fin 1) :
    shapeCast ⟨2, ![262144, 1]⟩ M h (ix2 (pixelRow a c) u) = M (ix4 z a c u) :=
  shapeCast_apply M h _ _ (by
    have hz : z.val = 0 := by omega
    rw [Shape.rowMajor_val_four, Shape.rowMajor_val_two]
    show ((z.val * 512 + a.val) * 512 + c.val) * 1 + u.val = (a.val * 512 + c.val) * 1 + u.val
    rw [hz]; omega)

/-- A rows-array given the grid's shape reads, at pixel `(a, c)`, row `512 a + c`. -/
theorem grid_of_rows (Y : Rows) (h : (⟨2, ![262144, 128]⟩ : Shape).ShapeCasts ⟨4, ![1, 512, 512, 128]⟩)
    (z : Fin 1) (a c : Fin 512) (k : Fin 128) :
    shapeCast ⟨4, ![1, 512, 512, 128]⟩ Y h (ix4 z a c k) = Y (ix2 (pixelRow a c) k) :=
  shapeCast_apply Y h _ _ (by
    have hz : z.val = 0 := by omega
    rw [Shape.rowMajor_val_four, Shape.rowMajor_val_two]
    show (a.val * 512 + c.val) * 128 + k.val = ((z.val * 512 + a.val) * 512 + c.val) * 128 + k.val
    rw [hz]; omega)

/-- The channels of row `512 a + c` of the flattened pixels are the channels of pixel `(a, c)`. -/
theorem row_of_flat (X : Grid) (h : (⟨4, ![1, 512, 512, 128]⟩ : Shape).ShapeCasts ⟨2, ![262144, 128]⟩)
    (z : Fin 1) (a c : Fin 512) :
    rowOf (shapeCast ⟨2, ![262144, 128]⟩ X h) (pixelRow a c) = pixel X z a c :=
  funext fun k => flat_rows X h z a c k

/-- A gated projection computed row-wise over the flattened operands with transposed weights, in the grid's shape, is
    the gated projection of the grid. -/
theorem gated_flat (X : Grid) (M : GridMask) (g b : Vect 128) (wp : Mat 128 128) (bp : Vect 128) (wg : Mat 128 128) (bg : Vect 128)
    (hX : (⟨4, ![1, 512, 512, 128]⟩ : Shape).ShapeCasts ⟨2, ![262144, 128]⟩)
    (hM : (⟨4, ![1, 512, 512, 1]⟩ : Shape).ShapeCasts ⟨2, ![262144, 1]⟩)
    (hY : (⟨2, ![262144, 128]⟩ : Shape).ShapeCasts ⟨4, ![1, 512, 512, 128]⟩)
    (ht : (⟨2, ![128, 128]⟩ : Shape).Transposes [1, 0] ⟨2, ![128, 128]⟩) :
    shapeCast ⟨4, ![1, 512, 512, 128]⟩
        (gatedRows (shapeCast ⟨2, ![262144, 128]⟩ X hX) (shapeCast ⟨2, ![262144, 1]⟩ M hM) g b
          (transpose ⟨2, ![128, 128]⟩ [1, 0] wp ht) bp (transpose ⟨2, ![128, 128]⟩ [1, 0] wg ht) bg) hY
      = gatedGrid X M g b wp bp wg bg := by
  funext i
  obtain ⟨z, a, c, h, rfl⟩ : ∃ (z : Fin 1) (a c : Fin 512) (h : Fin 128), i = ix4 z a c h := ⟨i 0, i 1, i 2, i 3, eq_ix4 i⟩
  rw [grid_of_rows _ hY z a c h, gatedRows_apply, gatedGrid_apply, flat_masks M hM z a c, row_of_flat X hX z a c]
  unfold gated gatedT
  rw [affine_transpose, affine_transpose]

/-- The same for the logistic function of a projection. -/
theorem squashed_flat (X : Grid) (g b : Vect 128) (w : Mat 128 128) (bw : Vect 128)
    (hX : (⟨4, ![1, 512, 512, 128]⟩ : Shape).ShapeCasts ⟨2, ![262144, 128]⟩)
    (hY : (⟨2, ![262144, 128]⟩ : Shape).ShapeCasts ⟨4, ![1, 512, 512, 128]⟩)
    (ht : (⟨2, ![128, 128]⟩ : Shape).Transposes [1, 0] ⟨2, ![128, 128]⟩) :
    shapeCast ⟨4, ![1, 512, 512, 128]⟩
        (squashedRows (shapeCast ⟨2, ![262144, 128]⟩ X hX) g b (transpose ⟨2, ![128, 128]⟩ [1, 0] w ht) bw) hY
      = squashedGrid X g b w bw := by
  funext i
  obtain ⟨z, a, c, h, rfl⟩ : ∃ (z : Fin 1) (a c : Fin 512) (h : Fin 128), i = ix4 z a c h := ⟨i 0, i 1, i 2, i 3, eq_ix4 i⟩
  rw [grid_of_rows _ hY z a c h, squashedRows_apply, squashedGrid_apply, row_of_flat X hX z a c]
  unfold squashed squashedT
  rw [affine_transpose]

end Cert.TriGate.Flat

end
-- ==== Proof.KernelValues.lean ====
/-
  The three results of the kernel's program as functions of its arguments.

  After the launch each result array is the row-wise function of the flattened pixels, the flattened mask and the
  transposed weights; the program then gives it the grid's shape. Flattening and transposing undone, each result is the
  grid-wise gated projection (or logistic projection) of the program's own arguments.
-/
import proofs.«144442_j46823733461368_2_alg».proof.Proof.HostGlue
import proofs.«144442_j46823733461368_2_alg».proof.Proof.Flushed
import proofs.«144442_j46823733461368_2_alg».proof.Proof.Flat

noncomputable section

open Idealize.ShloMosaic Idealize.ShloMosaic.TcCoe Idealize.SL.Sem
open Idealize.ShloMosaic.Pipeline (Dat)

namespace Cert.TriGate.Kernel

open Cert.KernelIdeal Cert.KernelIdeal.Gen Cert.LibRowOps Cert.TriGate

variable (m : (ℓ : Loc nD τ sig) → Buf (Elt Ideal) ℓ) (ρ : Dev nD → PrngReg)

/-- The first result, in the grid's shape, is the gated projection of the arguments. -/
theorem first_value (c : Dev nD) :
    shapeCast S1x512x512x128 ((dats m 0 c).arrAt 14 cfg0.N) shapeCasts_S262144x128_S1x512x512x128
      = gatedGrid (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) := by
  rw [Blocks.first_final m c]
  unfold Blocks.firstRows
  rw [Host.rows_entry m c, Host.masks_entry m c, Host.weights2_entry m c, Host.weights3_entry m c,
    V_main_arg2 m c, V_main_arg3 m c, V_main_arg5 m c, V_main_arg7 m c]
  exact Flat.gated_flat _ _ _ _ _ _ _ _ _ _ _ _

/-- The second result likewise, with the second weight pair. -/
theorem second_value (c : Dev nD) :
    shapeCast S1x512x512x128 ((dats m 0 c).arrAt 15 cfg0.N) shapeCasts_S262144x128_S1x512x512x128
      = gatedGrid (m ((c : Thread nD τ).loc main_arg0)) (m ((c : Thread nD τ).loc main_arg1)) (m ((c : Thread nD τ).loc main_arg2)) (m ((c : Thread nD τ).loc main_arg3))
          (m ((c : Thread nD τ).loc main_arg8)) (m ((c : Thread nD τ).loc main_arg9)) (m ((c : Thread nD τ).loc main_arg10)) (m ((c : Thread nD τ).loc main_arg11)) := by
  rw [Blocks.second_final m c]
  unfold Blocks.secondRows
  rw [Host.rows_entry m c, Host.masks_entry m c, Host.weights4_entry m c, Host.weights5_entry m c,
    V_main_arg2 m c, V_main_arg3 m c, V_main_arg9 m c, V_main_arg11 m c]
  exact Flat.gated_flat _ _ _ _ _ _ _ _ _ _ _ _

/-- The third result is the logistic projection of the arguments. -/
theorem third_value (c : Dev nD) :
    shapeCast S1x512x512x128 ((dats m 0 c).arrAt 16 cfg0.N) shapeCasts_S262144x128_S1x512x512x128
      = squashedGrid (m ((c : Thread nD τ).loc main_arg0)) (m ((c : Thread nD τ).loc main_arg2)) (m ((c : Thread nD τ).loc main_arg3)) (m ((c : Thread nD τ).loc main_arg12)) (m ((c : Thread nD τ).loc main_arg13)) := by
  rw [Blocks.third_final m c]
  unfold Blocks.thirdRows
  rw [Host.rows_entry m c, Host.weights6_entry m c, V_main_arg2 m c, V_main_arg3 m c, V_main_arg13 m c]
  exact Flat.squashed_flat _ _ _ _ _ _ _ _

set_option maxHeartbeats 2000000 in
/-- Every weakly fair execution of the kernel's program terminates with its three results at the gated projections of
    its arguments, and the arguments as they were. The results are read off the frame run's post: each is the
    reshape after the launch of the launch's array; each argument ends unchanged as the frame says. -/
theorem run : θ_run defs (onTc (τ := τ) (main (F := Ideal))) ⟨m, fun _ => 0, ρ⟩ (fun r => ∀ c : Dev nD,
      r.2.mem ((c : Thread nD τ).loc main_v8) = gatedGrid (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
      ∧ r.2.mem ((c : Thread nD τ).loc main_v9) = gatedGrid (m ((c : Thread nD τ).loc main_arg0)) (m ((c : Thread nD τ).loc main_arg1)) (m ((c : Thread nD τ).loc main_arg2)) (m ((c : Thread nD τ).loc main_arg3))
          (m ((c : Thread nD τ).loc main_arg8)) (m ((c : Thread nD τ).loc main_arg9)) (m ((c : Thread nD τ).loc main_arg10)) (m ((c : Thread nD τ).loc main_arg11))
      ∧ r.2.mem ((c : Thread nD τ).loc main_v10) = squashedGrid (m ((c : Thread nD τ).loc main_arg0)) (m ((c : Thread nD τ).loc main_arg2)) (m ((c : Thread nD τ).loc main_arg3)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)) :=
  (θ_run defs _ _).mono (fun _ h c => ⟨
      ((h c).2 main_v8 (Pipeline.mem_restRefs_of main_v8 (by decide) (by decide))).trans ((Host.first_exit m c).trans (first_value m c)),
      ((h c).2 main_v9 (Pipeline.mem_restRefs_of main_v9 (by decide) (by decide))).trans ((Host.second_exit m c).trans (second_value m c)),
      ((h c).2 main_v10 (Pipeline.mem_restRefs_of main_v10 (by decide) (by decide))).trans ((Host.third_exit m c).trans (third_value m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c)),
      ((h c).1 11).trans (((dats m 0 c).arrAt_in 11 rfl _).trans ((A_eq m c 11).trans (V_main_arg11 m c))),
      (((h c).2 main_arg12 (Pipeline.mem_restRefs_of main_arg12 (by decide) (by decide))).trans (W_main_arg12 m (dats m) c)),
      ((h c).1 13).trans (((dats m 0 c).arrAt_in 13 rfl _).trans ((A_eq m c 13).trans (V_main_arg13 m c)))⟩)
    (run_main m ρ)

end Cert.TriGate.Kernel

end
-- ==== Proof.RefRows.lean ====
/-
  The reference program read at an index.

  The reference normalises every pixel row of the pair representation (mean and variance over the 128 channels,
  reciprocal root of the offset variance, gain and shift), applies five dense maps whose weights are stored
  output-major, and combines them: two results are the pixel's mask times the logistic function of one map times
  another map, the third is the logistic function of a map. Reading each operation at an index, stage by stage,
  the three results are the grid functions of the specification.
-/
import proofs.«144442_j46823733461368_2_alg».proof.Proof.Spec
import proofs.«144442_j46823733461368_2_alg».proof.Proof.Gen.ReferenceIdeal.Read
import Idealize.ShloMosaic.Lib.IdealHost

noncomputable section

open scoped BigOperators

namespace Cert.TriGate.Reference

open Idealize.ShloMosaic Idealize.ShloMosaic.ValueIdx Cert.LibRowOps Cert.TriGate Cert.ReferenceIdeal Cert.ReferenceIdeal.Read

/-! ## The normalised row -/

/-- The mean stage, at any index of pixel (a, c), is the mean of the pixel's channels: the sum over the last axis
    starts from the float zero, and the divisor is the float 128. -/
theorem mean_eq (X : Grid) (a c : Fin 512) (j : S1x512x512x1.Idx) (h1 : (j 1).val = a.val) (h2 : (j 2).val = c.val) :
    val_main_v3 (F := Ideal) X j = mean len (pixel X 0 a c) := by
  rw [val_main_v3_apply, val_main_v1_apply, val_main_v0_apply, val_main_v2_apply, val_main_cst_0_apply,
    val_main_cst_apply]
  rw [Ideal.hostDivf_def, Ideal.ofBits_def, Ideal.ofBits_def, Ideal.ofBits_zero_f32, zero_add]
  unfold mean pixel
  refine congrArg (fun s => Ideal.div s len) (Finset.sum_congr rfl fun k _ => congrArg X ?_)
  exact funext fun e => Fin.ext (by
    match e with
    | ⟨0, _⟩ => rfl
    | ⟨1, _⟩ => exact h1
    | ⟨2, _⟩ => exact h2
    | ⟨3, _⟩ => rfl)

/-- The first subtraction of the mean gives the centred row. -/
theorem centred_eq (X : Grid) (a c : Fin 512) (k : Fin 128) :
    val_main_v5 (F := Ideal) X (ix4 (0 : Fin 1) a c k) = centred len (pixel X 0 a c) k := by
  rw [val_main_v5_apply, val_main_v4_apply, mean_eq X a c _ rfl rfl]
  rfl

/-- The second subtraction of the mean gives the centred row again. -/
theorem centred_eq' (X : Grid) (a c : Fin 512) (k : Fin 128) :
    val_main_v12 (F := Ideal) X (ix4 (0 : Fin 1) a c k) = centred len (pixel X 0 a c) k := by
  rw [val_main_v12_apply, val_main_v11_apply, mean_eq X a c _ rfl rfl]
  rfl

/-- The variance stage, at any index of pixel (a, c), is the mean of the squares of the centred row. -/
theorem variance_eq (X : Grid) (a c : Fin 512) (j : S1x512x512x1.Idx) (h1 : (j 1).val = a.val) (h2 : (j 2).val = c.val) :
    val_main_v10 (F := Ideal) X j = variance len (pixel X 0 a c) := by
  rw [val_main_v10_apply, val_main_v8_apply, val_main_v7_apply, val_main_v9_apply, val_main_cst_2_apply,
    val_main_cst_1_apply]
  rw [Ideal.hostDivf_def, Ideal.ofBits_def, Ideal.ofBits_def, Ideal.ofBits_zero_f32, zero_add]
  unfold variance
  refine congrArg (fun s => Ideal.div s len) (Finset.sum_congr rfl fun k _ => ?_)
  have hi : idx_main_v7 (idx_main_v8 j) k = ix4 (0 : Fin 1) a c k := funext fun e => Fin.ext (by
    match e with
    | ⟨0, _⟩ => rfl
    | ⟨1, _⟩ => exact h1
    | ⟨2, _⟩ => exact h2
    | ⟨3, _⟩ => rfl)
  rw [hi, val_main_v6_apply, centred_eq]
  rfl

/-- The reciprocal root stage is the reciprocal root of the variance offset by the small constant. -/
theorem rstd_eq (X : Grid) (a c : Fin 512) (j : S1x512x512x1.Idx) (h1 : (j 1).val = a.val) (h2 : (j 2).val = c.val) :
    val_main_v15 (F := Ideal) X j = Ideal.rsqrt (variance len (pixel X 0 a c) + eps) := by
  rw [val_main_v15_apply, val_main_v14_apply, variance_eq X a c j h1 h2, val_main_v13_apply, val_main_cst_3_apply]
  rfl

/-- The normalised stage at channel k of pixel (z, a, c) is the layer-normalised pixel row at k. -/
theorem row_eq (X : Grid) (g b : Vect 128) (z : Fin 1) (a c : Fin 512) (k : Fin 128) :
    val_main_v23 (F := Ideal) X g b (ix4 z a c k) = norm (pixel X z a c) g b k := by
  obtain rfl : z = 0 := Subsingleton.elim _ _
  rw [val_main_v23_apply, val_main_v20_apply, val_main_v17_apply, centred_eq', val_main_v16_apply,
    rstd_eq X a c _ rfl rfl, val_main_v19_apply, val_main_v18_apply, val_main_v22_apply, val_main_v21_apply]
  have hg : idx_main_v18 (idx_main_v19 (ix4 (0 : Fin 1) a c k)) = ix1 k :=
    funext fun e => Fin.ext (by match e with | ⟨0, _⟩ => rfl)
  have hb : idx_main_v21 (idx_main_v22 (ix4 (0 : Fin 1) a c k)) = ix1 k :=
    funext fun e => Fin.ext (by match e with | ⟨0, _⟩ => rfl)
  rw [hg, hb]
  rfl

/-! ## The dense maps and the logistic function -/

/-- A dense map of the reference at output channel h of pixel (z, a, c): the contraction runs over the channels of
    the normalised row against row h of the weights, and the bias is read at h. -/
theorem affine_eq (X : Grid) (g b : Vect 128) (w : Mat 128 128) (bw : Vect 128) (z : Fin 1) (a c : Fin 512) (h : Fin 128) :
    val_main_v27 (F := Ideal) X g b w bw (ix4 z a c h) = affineT (norm (pixel X z a c) g b) w bw h := by
  rw [val_main_v27_apply, val_main_v24_apply, val_main_v26_apply, val_main_v25_apply, Ideal.addf_def]
  unfold affineT
  refine congrArg₂ (· + ·) (Finset.sum_congr rfl fun k _ => ?_) (congrArg bw ?_)
  · have hl : lidx_main_v24 (ix4 z a c h) k = ix4 z a c k := funext fun e => Fin.ext (by
      match e with
      | ⟨0, _⟩ => rfl
      | ⟨1, _⟩ => rfl
      | ⟨2, _⟩ => rfl
      | ⟨3, _⟩ => rfl)
    have hr : ridx_main_v24 (ix4 z a c h) k = ix2 h k := funext fun e => Fin.ext (by
      match e with
      | ⟨0, _⟩ => rfl
      | ⟨1, _⟩ => rfl)
    rw [hl, hr, row_eq]
  · exact funext fun e => Fin.ext (by match e with | ⟨0, _⟩ => rfl)

/-- The reference spells the logistic function as one over one plus the exponential of the negation, with the float
    one for both ones. -/
theorem squash_eq (X : Grid) (g b : Vect 128) (w : Mat 128 128) (bw : Vect 128) (z : Fin 1) (a c : Fin 512) (h : Fin 128) :
    val_main_v33 (F := Ideal) X g b w bw (ix4 z a c h) = Ideal.logistic (affineT (norm (pixel X z a c) g b) w bw h) := by
  rw [val_main_v33_apply, val_main_v32_apply, val_main_cst_5_apply, val_main_v31_apply, val_main_v30_apply,
    val_main_cst_4_apply, val_main_v29_apply, val_main_v28_apply, affine_eq]
  rw [Ideal.ofBits_def, Ideal.ofBits_one_f32]
  rfl

/-! ## The three results -/

/-- The first result is the gated projection of every pixel of the grid. -/
theorem first_eq (X : Grid) (M : GridMask) (g b : Vect 128) (wp : Mat 128 128) (bp : Vect 128) (wg : Mat 128 128) (bg : Vect 128) :
    val_main_v40 (F := Ideal) X M g b wp bp wg bg = gatedGrid X M g b wp bp wg bg := by
  funext i
  obtain ⟨z, a, c, h, rfl⟩ : ∃ (z : Fin 1) (a c : Fin 512) (h : Fin 128), i = ix4 z a c h :=
    ⟨i 0, i 1, i 2, i 3, eq_ix4 i⟩
  obtain rfl : z = 0 := Subsingleton.elim _ _
  rw [gatedGrid_apply, val_main_v40_apply, val_main_v35_apply, val_main_v34_apply, squash_eq]
  have hp : val_main_v39 (F := Ideal) X g b wp bp (ix4 (0 : Fin 1) a c h)
      = affineT (norm (pixel X 0 a c) g b) wp bp h := affine_eq X g b wp bp 0 a c h
  have hm : idx_main_v34 (ix4 (0 : Fin 1) a c h) = ix4 (0 : Fin 1) a c (0 : Fin 1) := funext fun e => Fin.ext (by
    match e with
    | ⟨0, _⟩ => rfl
    | ⟨1, _⟩ => rfl
    | ⟨2, _⟩ => rfl
    | ⟨3, _⟩ => rfl)
  rw [hp, hm]
  rfl

/-- The second result is the same expression as the first in its own four weights. -/
theorem second_eq (X : Grid) (M : GridMask) (g b : Vect 128) (wp : Mat 128 128) (bp : Vect 128) (wg : Mat 128 128) (bg : Vect 128) :
    val_main_v57 (F := Ideal) X M g b wp bp wg bg = gatedGrid X M g b wp bp wg bg :=
  first_eq X M g b wp bp wg bg

/-- The third result is the logistic function of a projection of every pixel of the grid. -/
theorem third_eq (X : Grid) (g b : Vect 128) (w : Mat 128 128) (bw : Vect 128) :
    val_main_v67 (F := Ideal) X g b w bw = squashedGrid X g b w bw := by
  funext i
  obtain ⟨z, a, c, h, rfl⟩ : ∃ (z : Fin 1) (a c : Fin 512) (h : Fin 128), i = ix4 z a c h :=
    ⟨i 0, i 1, i 2, i 3, eq_ix4 i⟩
  rw [squashedGrid_apply]
  exact squash_eq X g b w bw z a c h

end Cert.TriGate.Reference

end
-- ==== Proof.lean ====
/-
  The triangle update's gated projections: the kernel's program and its reference compute the same three arrays in
  exact arithmetic.

  Both programs layer-normalise every pixel (a row of 128 channels: the mean and the variance over the channels, the
  reciprocal root of the variance plus a small constant, a gain and a shift), and apply dense maps to the normalised
  row. The first two results are `mask · logistic(z·Wgᵀ + bg) · (z·Wpᵀ + bp)` for two pairs of maps, the third is
  `logistic(z·Wᵀ + b)`. The reference does this on the 1 × 512 × 512 grid of pixels with the weights output-major;
  the kernel's program flattens the grid to 262144 rows, transposes the weights, works on blocks of 2048 rows, and
  reshapes the results back. Flattening keeps the row-major order, a transposed matrix read input-major is the
  matrix read output-major, the blocks tile the rows, and every sum is over the same 128 products in the same
  order of factors: the two sides are one function of the arguments, entry by entry, on the extended reals, with no
  appeal to finiteness. Each program's run terminates with its arguments unchanged (the frames); the idealised
  kernel is the kernel's own text read in exact arithmetic, so nothing was rewritten.
-/
import proofs.«144442_j46823733461368_2_alg».proof.Defs
import proofs.«144442_j46823733461368_2_alg».proof.Proof.Gen.Kernel
import proofs.«144442_j46823733461368_2_alg».proof.Proof.Gen.Kernel.Skeleton
import proofs.«144442_j46823733461368_2_alg».proof.Proof.Gen.Kernel.Launch
import proofs.«144442_j46823733461368_2_alg».proof.Proof.Gen.Kernel.Points
import proofs.«144442_j46823733461368_2_alg».proof.Proof.Gen.Kernel.Frame
import proofs.«144442_j46823733461368_2_alg».proof.Proof.Gen.KernelIdeal
import proofs.«144442_j46823733461368_2_alg».proof.Proof.Gen.KernelIdeal.Skeleton
import proofs.«144442_j46823733461368_2_alg».proof.Proof.Gen.KernelIdeal.Launch
import proofs.«144442_j46823733461368_2_alg».proof.Proof.Gen.KernelIdeal.Points
import proofs.«144442_j46823733461368_2_alg».proof.Proof.Gen.KernelIdeal.Frame
import proofs.«144442_j46823733461368_2_alg».proof.Proof.Gen.ReferenceIdeal
import proofs.«144442_j46823733461368_2_alg».proof.Proof.Gen.Pre_finite_inputs
import proofs.«144442_j46823733461368_2_alg».proof.Proof.Gen.ReferenceIdeal.Run
import proofs.«144442_j46823733461368_2_alg».proof.Proof.Gen.ReferenceIdeal.Read
import proofs.«144442_j46823733461368_2_alg».proof.Proof.KernelValues
import proofs.«144442_j46823733461368_2_alg».proof.Proof.RefRows
import Idealize.ShloMosaic.Adequacy
import Idealize.ShloMosaic.Init

noncomputable section

namespace Cert.Proof

open Idealize.ShloMosaic Idealize.ShloMosaic.TcCoe Idealize.SL.Sem

/-- The kernel's program terminates with its arguments unchanged. -/
theorem frame_kernel : Cert.frame_Kernel := fun m ρ _ => Cert.Kernel.Gen.frame m ρ

/-- So does its reading in exact arithmetic. -/
theorem frame_ideal : Cert.frame_KernelIdeal := fun m ρ _ => Cert.KernelIdeal.Gen.frame m ρ

/-- The reference terminates with its arguments unchanged: its run, the three results forgotten. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories agreeing on the arguments, both programs end with the three results at the gated projections of the
    arguments: the kernel's by its run read through the launch, the reference's by its run read operation by operation. -/
theorem algebraic : Cert.algebraic_KernelIdeal_ReferenceIdeal := by
  intro m ρ m' ρ' _ hagree
  refine ⟨_, _, _, Cert.TriGate.Kernel.run m ρ, ?_⟩
  refine (θ_run Cert.ReferenceIdeal.defs _ _).mono (fun _ h c => ?_) (Cert.ReferenceIdeal.Value.run (F := Ideal) m' ρ')
  obtain ⟨h40, h57, h67, hargs⟩ := h c
  obtain ⟨a0, a1, a2, a3, a4, a5, a6, a7, a8, a9, a10, a11, a12, a13⟩ := hagree c
  refine ⟨h40.trans ?_, h57.trans ?_, h67.trans ?_, hargs⟩
  · rw [Cert.ReferenceIdeal.Read.val_main_v40_eq, a0, a1, a2, a3, a4, a5, a6, a7]
    exact Cert.TriGate.Reference.first_eq _ _ _ _ _ _ _ _
  · rw [Cert.ReferenceIdeal.Read.val_main_v57_eq, a0, a1, a2, a3, a8, a9, a10, a11]
    exact Cert.TriGate.Reference.second_eq _ _ _ _ _ _ _ _
  · refine (Cert.ReferenceIdeal.Read.val_main_v67_eq _ _ _ _ _).trans ?_
    rw [a0, a2, a3, a12, a13]
    exact Cert.TriGate.Reference.third_eq _ _ _ _ _

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
